-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S524288 : Shape := ⟨1, ![524288]⟩
abbrev S256x64 : Shape := ⟨2, ![256, 64]⟩
abbrev S64x32 : Shape := ⟨2, ![64, 32]⟩
abbrev S32 : Shape := ⟨1, ![32]⟩
abbrev S32x32 : Shape := ⟨2, ![32, 32]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S524288 : S_.BroadcastsInDim S524288 (![] : Fin 0 → Fin S524288.rank)
  reducesTo_S524288_S_d0 : S524288.ReducesTo [0] S_
  bcast_S_S256x64 : S_.BroadcastsInDim S256x64 (![] : Fin 0 → Fin S256x64.rank)
  reducesTo_S256x64_S_d0_1 : S256x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg4 : FVec F S64x32 .f32) (main_arg5 : FVec F S32 .f32) (main_arg6 : FVec F S32x32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  main_v33

def fn {F : FTy → Type} [FloatOps F] (main_arg0 : FVec F S16384x256 .f32) (main_arg1 : FVec F S524288 .f32) (main_arg2 : FVec F S256x64 .f32) (main_arg3 : FVec F S64x32 .f32) (main_arg4 : FVec F S64x32 .f32) (main_arg5 : FVec F S32 .f32) (main_arg6 : FVec F S32x32 .f32) (main_arg7 : IVec S524288 32) (main_arg8 : IVec S524288 32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S524288 .f32 := Host.absf main_arg1
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_arg6 main_v13 main_v16
-- ==== Kernel.lean ====
abbrev S16384x256 : Shape := ⟨2, ![16384, 256]⟩
abbrev S524288 : Shape := ⟨1, ![524288]⟩
abbrev S256x64 : Shape := ⟨2, ![256, 64]⟩
abbrev S64x32 : Shape := ⟨2, ![64, 32]⟩
abbrev S32 : Shape := ⟨1, ![32]⟩
abbrev S32x32 : Shape := ⟨2, ![32, 32]⟩
abbrev S16384x64 : Shape := ⟨2, ![16384, 64]⟩
abbrev S_ : Shape := ⟨0, ![]⟩
abbrev S524288x1 : Shape := ⟨2, ![524288, 1]⟩
abbrev S524288x64 : Shape := ⟨2, ![524288, 64]⟩
abbrev S64x64 : Shape := ⟨2, ![64, 64]⟩
abbrev S16384x32 : Shape := ⟨2, ![16384, 32]⟩
abbrev S1x32 : Shape := ⟨2, ![1, 32]⟩
abbrev S32x16384 : Shape := ⟨2, ![32, 16384]⟩
abbrev S16384x16384 : Shape := ⟨2, ![16384, 16384]⟩
abbrev S1024x32 : Shape := ⟨2, ![1024, 32]⟩
abbrev S32x2048 : Shape := ⟨2, ![32, 2048]⟩
abbrev S1024x2048 : Shape := ⟨2, ![1024, 2048]⟩

abbrev nBuf : Space → Nat
  | .hbm => 56
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S524288, .f32⟩
  | .hbm, ⟨2, _⟩ => ⟨S256x64, .f32⟩
  | .hbm, ⟨3, _⟩ => ⟨S64x32, .f32⟩
  | .hbm, ⟨4, _⟩ => ⟨S64x32, .f32⟩
  | .hbm, ⟨5, _⟩ => ⟨S32, .f32⟩
  | .hbm, ⟨6, _⟩ => ⟨S32x32, .f32⟩
  | .hbm, ⟨7, _⟩ => ⟨S524288, .i32⟩
  | .hbm, ⟨8, _⟩ => ⟨S524288, .i32⟩
  | .hbm, ⟨9, _⟩ => ⟨S16384x64, .f32⟩
  | .hbm, ⟨10, _⟩ => ⟨S_, .i32⟩
  | .hbm, ⟨11, _⟩ => ⟨S524288, .i32⟩
  | .hbm, ⟨12, _⟩ => ⟨S524288, .i1⟩
  | .hbm, ⟨13, _⟩ => ⟨S_, .i32⟩
  | .hbm, ⟨14, _⟩ => ⟨S524288, .i32⟩
  | .hbm, ⟨15, _⟩ => ⟨S524288, .i32⟩
  | .hbm, ⟨16, _⟩ => ⟨S524288, .i32⟩
  | .hbm, ⟨17, _⟩ => ⟨S524288x1, .i32⟩
  | .hbm, ⟨18, _⟩ => ⟨S524288x64, .f32⟩
  | .hbm, ⟨19, _⟩ => ⟨S524288x1, .f32⟩
  | .hbm, ⟨20, _⟩ => ⟨S524288x64, .f32⟩
  | .hbm, ⟨21, _⟩ => ⟨S524288x64, .f32⟩
  | .hbm, ⟨22, _⟩ => ⟨S_, .f32⟩
  | .hbm, ⟨23, _⟩ => ⟨S16384x64, .f32⟩
  | .hbm, ⟨24, _⟩ => ⟨S524288x1, .i32⟩
  | .hbm, ⟨25, _⟩ => ⟨S16384x64, .f32⟩
  | .hbm, ⟨26, _⟩ => ⟨S64x64, .f32⟩
  | .hbm, ⟨27, _⟩ => ⟨S16384x64, .f32⟩
  | .hbm, ⟨28, _⟩ => ⟨S_, .i32⟩
  | .hbm, ⟨29, _⟩ => ⟨S524288, .i32⟩
  | .hbm, ⟨30, _⟩ => ⟨S524288, .i1⟩
  | .hbm, ⟨31, _⟩ => ⟨S_, .i32⟩
  | .hbm, ⟨32, _⟩ => ⟨S524288, .i32⟩
  | .hbm, ⟨33, _⟩ => ⟨S524288, .i32⟩
  | .hbm, ⟨34, _⟩ => ⟨S524288, .i32⟩
  | .hbm, ⟨35, _⟩ => ⟨S524288x1, .i32⟩
  | .hbm, ⟨36, _⟩ => ⟨S524288x64, .f32⟩
  | .hbm, ⟨37, _⟩ => ⟨S524288x1, .f32⟩
  | .hbm, ⟨38, _⟩ => ⟨S524288x64, .f32⟩
  | .hbm, ⟨39, _⟩ => ⟨S524288x64, .f32⟩
  | .hbm, ⟨40, _⟩ => ⟨S_, .f32⟩
  | .hbm, ⟨41, _⟩ => ⟨S16384x64, .f32⟩
  | .hbm, ⟨42, _⟩ => ⟨S524288x1, .i32⟩
  | .hbm, ⟨43, _⟩ => ⟨S16384x64, .f32⟩
  | .hbm, ⟨44, _⟩ => ⟨S16384x32, .f32⟩
  | .hbm, ⟨45, _⟩ => ⟨S16384x32, .f32⟩
  | .hbm, ⟨46, _⟩ => ⟨S1x32, .f32⟩
  | .hbm, ⟨47, _⟩ => ⟨S16384x32, .f32⟩
  | .hbm, ⟨48, _⟩ => ⟨S16384x32, .f32⟩
  | .hbm, ⟨49, _⟩ => ⟨S16384x32, .f32⟩
  | .hbm, ⟨50, _⟩ => ⟨S1x32, .f32⟩
  | .hbm, ⟨51, _⟩ => ⟨S16384x32, .f32⟩
  | .hbm, ⟨52, _⟩ => ⟨S16384x32, .f32⟩
  | .hbm, ⟨53, _⟩ => ⟨S16384x32, .bf16⟩
  | .hbm, ⟨54, _⟩ => ⟨S32x16384, .bf16⟩
  | .hbm, ⟨55, _⟩ => ⟨S16384x16384, .f32⟩
  | .local _ .vmem, ⟨0, _⟩ => ⟨S1024x32, .bf16⟩
  | .local _ .vmem, ⟨1, _⟩ => ⟨S1024x32, .bf16⟩
  | .local _ .vmem, ⟨2, _⟩ => ⟨S32x2048, .bf16⟩
  | .local _ .vmem, ⟨3, _⟩ => ⟨S32x2048, .bf16⟩
  | .local _ .vmem, ⟨4, _⟩ => ⟨S1024x2048, .f32⟩
  | .local _ .vmem, ⟨5, _⟩ => ⟨S1024x2048, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x64_0_1 : S524288x1.BroadcastsInDim S524288x64 (![0, 1] : Fin 2 → Fin S524288x64.rank)
  bcast_S_S16384x64 : S_.BroadcastsInDim S16384x64 (![] : Fin 0 → Fin S16384x64.rank)
  concatenates_S64x32_S64x32_S64x64_d1 : Shape.Concatenates [S64x32, S64x32] S64x64 1
  slices_S16384x64_S16384x32_0_0 : S16384x64.Slices ![0, 0] S16384x32
  slices_S16384x64_S16384x32_0_32 : S16384x64.Slices ![0, 32] S16384x32
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bitsLt_bf16_f32 : FTy.bits .bf16 < FTy.bits .f32
  transposes_S16384x32_S32x16384_1_0 : S16384x32.Transposes [1, 0] S32x16384
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  inb_S1024x2048_S1024x2048_0_0 : ∀ a, (![0, 0] : Fin 2 → Nat) a + S1024x2048.size a ≤ S1024x2048.size a
  h_S1024x2048 : 0 < S1024x2048.numel
  dot_S16384x256_S256x64_S16384x64_1_0_0_1_n_n_wf : DotDims.WF S16384x256 S256x64 S16384x64 [1] [0] [0] [1] [] []
  gather_S16384x64_S524288x1_S524288x64_1_0_n_n_0_1_164_wf : GatherDims.WF S16384x64 S524288x1 S524288x64 [1] [0] [] [0] [] 1 ![1, 64]
  scatter_S16384x64_S524288x1_S524288x64_1_0_0_1_wf : ScatterDims.WF S16384x64 S524288x1 S524288x64 [1] [0] [0] 1
  dot_S16384x64_S64x64_S16384x64_1_0_0_1_n_n_wf : DotDims.WF S16384x64 S64x64 S16384x64 [1] [0] [0] [1] [] []
  dot_S16384x32_S32x32_S16384x32_1_0_0_1_n_n_wf : DotDims.WF S16384x32 S32x32 S16384x32 [1] [0] [0] [1] [] []
  dot_S1024x32_S32x2048_S1024x2048_1_0_0_1_n_n_wf : DotDims.WF S1024x32 S32x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S16384x32.size a
  hwx0_0 : ∀ i : grid0.Coords, EltTy.bits .bf16 = 32 ∨ (Rect.block (s := S16384x32) S1024x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x2048.size a ≤ S32x16384.size a
  hwx0_1 : ∀ i : grid0.Coords, EltTy.bits .bf16 = 32 ∨ (Rect.block (s := S32x16384) S32x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S16384x16384.size a
  hwx0_2 : ∀ i : grid0.Coords, EltTy.bits .f32 = 32 ∨ (Rect.block (s := S16384x16384) S1024x2048.size (cc0_transform_2 i) (hinb0_2 i)).WholeWords (EltTy.packing .f32)

variable [Facts₀]

def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def gather_S16384x64_S524288x1_S524288x64_1_0_n_n_0_1_164 : GatherDims S16384x64 S524288x1 S524288x64 where
  offsetDims := [1]
  collapsedSliceDims := [0]
  operandBatchingDims := []
  startIndicesBatchingDims := []
  startIndexMap := [0]
  indexVectorDim := 1
  sliceSizes := ![1, 64]
  wf := gather_S16384x64_S524288x1_S524288x64_1_0_n_n_0_1_164_wf
def scatter_S16384x64_S524288x1_S524288x64_1_0_0_1 : ScatterDims S16384x64 S524288x1 S524288x64 where
  updateWindowDims := [1]
  insertedWindowDims := [0]
  scatterDimsToOperandDims := [0]
  indexVectorDim := 1
  wf := scatter_S16384x64_S524288x1_S524288x64_1_0_0_1_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def dot_S1024x32_S32x2048_S1024x2048_1_0_0_1_n_n : DotDims S1024x32 S32x2048 S1024x2048 where
  lhsContracting := [1]
  rhsContracting := [0]
  lhsNonContracting := [0]
  rhsNonContracting := [1]
  lhsBatch := []
  rhsBatch := []
  wf := dot_S1024x32_S32x2048_S1024x2048_1_0_0_1_n_n_wf

abbrev win0_0 : Pipeline.Window sig grid0 :=
  Pipeline.Window.ofSpec (Memref.whole main_v38) S1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S32x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x256 : Shape := ⟨2, ![16384, 256]⟩
abbrev S524288 : Shape := ⟨1, ![524288]⟩
abbrev S256x64 : Shape := ⟨2, ![256, 64]⟩
abbrev S64x32 : Shape := ⟨2, ![64, 32]⟩
abbrev S32 : Shape := ⟨1, ![32]⟩
abbrev S32x32 : Shape := ⟨2, ![32, 32]⟩
abbrev S16384x64 : Shape := ⟨2, ![16384, 64]⟩
abbrev S_ : Shape := ⟨0, ![]⟩
abbrev S524288x1 : Shape := ⟨2, ![524288, 1]⟩
abbrev S524288x64 : Shape := ⟨2, ![524288, 64]⟩
abbrev S16384x32 : Shape := ⟨2, ![16384, 32]⟩
abbrev S524288x32 : Shape := ⟨2, ![524288, 32]⟩
abbrev S1x32 : Shape := ⟨2, ![1, 32]⟩
abbrev S32x16384 : Shape := ⟨2, ![32, 16384]⟩
abbrev S16384x16384 : Shape := ⟨2, ![16384, 16384]⟩

abbrev nBuf : Space → Nat
  | .hbm => 69
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S524288, .f32⟩
  | .hbm, ⟨2, _⟩ => ⟨S256x64, .f32⟩
  | .hbm, ⟨3, _⟩ => ⟨S64x32, .f32⟩
  | .hbm, ⟨4, _⟩ => ⟨S64x32, .f32⟩
  | .hbm, ⟨5, _⟩ => ⟨S32, .f32⟩
  | .hbm, ⟨6, _⟩ => ⟨S32x32, .f32⟩
  | .hbm, ⟨7, _⟩ => ⟨S524288, .i32⟩
  | .hbm, ⟨8, _⟩ => ⟨S524288, .i32⟩
  | .hbm, ⟨9, _⟩ => ⟨S16384x64, .f32⟩
  | .hbm, ⟨10, _⟩ => ⟨S_, .i32⟩
  | .hbm, ⟨11, _⟩ => ⟨S524288, .i32⟩
  | .hbm, ⟨12, _⟩ => ⟨S524288, .i1⟩
  | .hbm, ⟨13, _⟩ => ⟨S_, .i32⟩
  | .hbm, ⟨14, _⟩ => ⟨S524288, .i32⟩
  | .hbm, ⟨15, _⟩ => ⟨S524288, .i32⟩
  | .hbm, ⟨16, _⟩ => ⟨S524288, .i32⟩
  | .hbm, ⟨17, _⟩ => ⟨S524288x1, .i32⟩
  | .hbm, ⟨18, _⟩ => ⟨S524288x64, .f32⟩
  | .hbm, ⟨19, _⟩ => ⟨S524288x1, .f32⟩
  | .hbm, ⟨20, _⟩ => ⟨S524288x64, .f32⟩
  | .hbm, ⟨21, _⟩ => ⟨S524288x64, .f32⟩
  | .hbm, ⟨22, _⟩ => ⟨S_, .f32⟩
  | .hbm, ⟨23, _⟩ => ⟨S16384x64, .f32⟩
  | .hbm, ⟨24, _⟩ => ⟨S524288x1, .i32⟩
  | .hbm, ⟨25, _⟩ => ⟨S16384x64, .f32⟩
  | .hbm, ⟨26, _⟩ => ⟨S16384x32, .f32⟩
  | .hbm, ⟨27, _⟩ => ⟨S_, .i32⟩
  | .hbm, ⟨28, _⟩ => ⟨S524288, .i32⟩
  | .hbm, ⟨29, _⟩ => ⟨S524288, .i1⟩
  | .hbm, ⟨30, _⟩ => ⟨S_, .i32⟩
  | .hbm, ⟨31, _⟩ => ⟨S524288, .i32⟩
  | .hbm, ⟨32, _⟩ => ⟨S524288, .i32⟩
  | .hbm, ⟨33, _⟩ => ⟨S524288, .i32⟩
  | .hbm, ⟨34, _⟩ => ⟨S524288x1, .i32⟩
  | .hbm, ⟨35, _⟩ => ⟨S524288x32, .f32⟩
  | .hbm, ⟨36, _⟩ => ⟨S524288x1, .f32⟩
  | .hbm, ⟨37, _⟩ => ⟨S524288x32, .f32⟩
  | .hbm, ⟨38, _⟩ => ⟨S524288x32, .f32⟩
  | .hbm, ⟨39, _⟩ => ⟨S_, .f32⟩
  | .hbm, ⟨40, _⟩ => ⟨S16384x32, .f32⟩
  | .hbm, ⟨41, _⟩ => ⟨S524288x1, .i32⟩
  | .hbm, ⟨42, _⟩ => ⟨S16384x32, .f32⟩
  | .hbm, ⟨43, _⟩ => ⟨S16384x32, .f32⟩
  | .hbm, ⟨44, _⟩ => ⟨S_, .i32⟩
  | .hbm, ⟨45, _⟩ => ⟨S524288, .i32⟩
  | .hbm, ⟨46, _⟩ => ⟨S524288, .i1⟩
  | .hbm, ⟨47, _⟩ => ⟨S_, .i32⟩
  | .hbm, ⟨48, _⟩ => ⟨S524288, .i32⟩
  | .hbm, ⟨49, _⟩ => ⟨S524288, .i32⟩
  | .hbm, ⟨50, _⟩ => ⟨S524288, .i32⟩
  | .hbm, ⟨51, _⟩ => ⟨S524288x1, .i32⟩
  | .hbm, ⟨52, _⟩ => ⟨S524288x32, .f32⟩
  | .hbm, ⟨53, _⟩ => ⟨S524288x1, .f32⟩
  | .hbm, ⟨54, _⟩ => ⟨S524288x32, .f32⟩
  | .hbm, ⟨55, _⟩ => ⟨S524288x32, .f32⟩
  | .hbm, ⟨56, _⟩ => ⟨S_, .f32⟩
  | .hbm, ⟨57, _⟩ => ⟨S16384x32, .f32⟩
  | .hbm, ⟨58, _⟩ => ⟨S524288x1, .i32⟩
  | .hbm, ⟨59, _⟩ => ⟨S16384x32, .f32⟩
  | .hbm, ⟨60, _⟩ => ⟨S1x32, .f32⟩
  | .hbm, ⟨61, _⟩ => ⟨S16384x32, .f32⟩
  | .hbm, ⟨62, _⟩ => ⟨S16384x32, .f32⟩
  | .hbm, ⟨63, _⟩ => ⟨S16384x32, .f32⟩
  | .hbm, ⟨64, _⟩ => ⟨S1x32, .f32⟩
  | .hbm, ⟨65, _⟩ => ⟨S16384x32, .f32⟩
  | .hbm, ⟨66, _⟩ => ⟨S16384x32, .f32⟩
  | .hbm, ⟨67, _⟩ => ⟨S32x16384, .f32⟩
  | .hbm, ⟨68, _⟩ => ⟨S16384x16384, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x64_0_1 : S524288x1.BroadcastsInDim S524288x64 (![0, 1] : Fin 2 → Fin S524288x64.rank)
  bcast_S_S16384x64 : S_.BroadcastsInDim S16384x64 (![] : Fin 0 → Fin S16384x64.rank)
  bcast_S524288x1_S524288x32_0_1 : S524288x1.BroadcastsInDim S524288x32 (![0, 1] : Fin 2 → Fin S524288x32.rank)
  bcast_S_S16384x32 : S_.BroadcastsInDim S16384x32 (![] : Fin 0 → Fin S16384x32.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  transposes_S16384x32_S32x16384_1_0 : S16384x32.Transposes [1, 0] S32x16384
  dot_S16384x256_S256x64_S16384x64_1_0_0_1_n_n_wf : DotDims.WF S16384x256 S256x64 S16384x64 [1] [0] [0] [1] [] []
  gather_S16384x64_S524288x1_S524288x64_1_0_n_n_0_1_164_wf : GatherDims.WF S16384x64 S524288x1 S524288x64 [1] [0] [] [0] [] 1 ![1, 64]
  scatter_S16384x64_S524288x1_S524288x64_1_0_0_1_wf : ScatterDims.WF S16384x64 S524288x1 S524288x64 [1] [0] [0] 1
  dot_S16384x64_S64x32_S16384x32_1_0_0_1_n_n_wf : DotDims.WF S16384x64 S64x32 S16384x32 [1] [0] [0] [1] [] []
  gather_S16384x32_S524288x1_S524288x32_1_0_n_n_0_1_132_wf : GatherDims.WF S16384x32 S524288x1 S524288x32 [1] [0] [] [0] [] 1 ![1, 32]
  scatter_S16384x32_S524288x1_S524288x32_1_0_0_1_wf : ScatterDims.WF S16384x32 S524288x1 S524288x32 [1] [0] [0] 1
  dot_S16384x32_S32x32_S16384x32_1_0_0_1_n_n_wf : DotDims.WF S16384x32 S32x32 S16384x32 [1] [0] [0] [1] [] []
  dot_S16384x32_S32x16384_S16384x16384_1_0_0_1_n_n_wf : DotDims.WF S16384x32 S32x16384 S16384x16384 [1] [0] [0] [1] [] []

variable [Facts₀]

def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def gather_S16384x64_S524288x1_S524288x64_1_0_n_n_0_1_164 : GatherDims S16384x64 S524288x1 S524288x64 where
  offsetDims := [1]
  collapsedSliceDims := [0]
  operandBatchingDims := []
  startIndicesBatchingDims := []
  startIndexMap := [0]
  indexVectorDim := 1
  sliceSizes := ![1, 64]
  wf := gather_S16384x64_S524288x1_S524288x64_1_0_n_n_0_1_164_wf
def scatter_S16384x64_S524288x1_S524288x64_1_0_0_1 : ScatterDims S16384x64 S524288x1 S524288x64 where
  updateWindowDims := [1]
  insertedWindowDims := [0]
  scatterDimsToOperandDims := [0]
  indexVectorDim := 1
  wf := scatter_S16384x64_S524288x1_S524288x64_1_0_0_1_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def gather_S16384x32_S524288x1_S524288x32_1_0_n_n_0_1_132 : GatherDims S16384x32 S524288x1 S524288x32 where
  offsetDims := [1]
  collapsedSliceDims := [0]
  operandBatchingDims := []
  startIndicesBatchingDims := []
  startIndexMap := [0]
  indexVectorDim := 1
  sliceSizes := ![1, 32]
  wf := gather_S16384x32_S524288x1_S524288x32_1_0_n_n_0_1_132_wf
def scatter_S16384x32_S524288x1_S524288x32_1_0_0_1 : ScatterDims S16384x32 S524288x1 S524288x32 where
  updateWindowDims := [1]
  insertedWindowDims := [0]
  scatterDimsToOperandDims := [0]
  indexVectorDim := 1
  wf := scatter_S16384x32_S524288x1_S524288x32_1_0_0_1_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def dot_S16384x32_S32x16384_S16384x16384_1_0_0_1_n_n : DotDims S16384x32 S32x16384 S16384x16384 where
  lhsContracting := [1]
  rhsContracting := [0]
  lhsNonContracting := [0]
  rhsNonContracting := [1]
  lhsBatch := []
  rhsBatch := []
  wf := dot_S16384x32_S32x16384_S16384x16384_1_0_0_1_n_n_wf

class Facts : Prop extends Facts₀ where

variable [Facts]
-- ==== Proof.LibTwoBlocks.lean ====
/-
  Three readings, at an entry, that come up when one matrix product over a joined axis is compared with two products
  over its parts, for any sizes.

  * A sum over `n = a + b` indices is the sum over the first `a` plus the sum over the last `b` (in any commutative
    monoid: only the grouping changes).
  * An `M × K` by `K × N` matrix product accumulated into zero reads, at `(p, q)`, the sum over `c` of
    `A (p, c) * B (c, q)`.
  * Two matrices with the same number of columns stacked one above the other read, at `(i, j)`, the upper one at
    `(i, j)` for a row of the upper piece and the lower one at `(i - a₁, j)` otherwise.
-/
import Mathlib.Algebra.BigOperators.Fin
import Idealize.ShloMosaic.Lib.Pipeline.Value
import Idealize.ShloMosaic.Lib.ValueIdx
import Idealize.ShloMosaic.PureOps.Ideal.Laws

noncomputable section

open scoped BigOperators

namespace Cert.Lib.TwoBlocks

open Idealize.ShloMosaic Idealize.ShloMosaic.ValueIdx

/-- A sum over `a + b` indices as the sum over the first `a` plus the sum over the last `b`. -/
theorem sum_two_blocks {M : Type*} [AddCommMonoid M] {a b n : ℕ} (hn : a + b = n) (f : Fin n → M) :
    ∑ k, f k = ∑ k : Fin a, f ⟨k.val, by have := k.isLt; omega⟩ + ∑ k : Fin b, f ⟨a + k.val, by have := k.isLt; omega⟩ := by
  subst hn
  rw [Fin.sum_univ_add]
  exact congrArg₂ (· + ·) (Finset.sum_congr rfl fun k _ => congrArg f (Fin.ext rfl))
    (Finset.sum_congr rfl fun k _ => congrArg f (Fin.ext rfl))

/-- An `M × K` by `K × N` product into the zero accumulator reads, at `(p, q)`, the sum over the shared axis. The
    dimension numbers are any that contract the left operand's columns with the right operand's rows and batch
    nothing (`hD`). -/
theorem plain_matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    matmul D prec A B (constant ⟨2, ![M, N]⟩ .f32 0x00000000#32) (ix2 p q) = ∑ c : Fin K, A (ix2 p c) * B (ix2 c q) := by
  subst hD
  show FloatOps.matmul (DotDims.plain M K N) prec A B _ (ix2 p q) = _
  rw [Ideal.matmul_constant_zero_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

variable {α : Type}

/-- A row of the upper piece: the stack at `(i, j)` with `i = k < a₁` is the upper piece at `(k, j)`. -/
theorem concat_rows_upper {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₁) (hk : k.val = i.val) :
    concatenate ⟨2, ![n, b]⟩ 0 [⟨⟨2, ![a₁, b]⟩, x₁⟩, ⟨⟨2, ![a₂, b]⟩, x₂⟩] h (ix2 i j) = x₁ (ix2 k j) :=
  concatenate_pair_apply_left (t := ⟨2, ![n, b]⟩) 0 x₁ x₂ h (ix2 i j) rfl (ix2 k j) (fun ax => by
    match ax with
    | ⟨0, _⟩ => exact hk
    | ⟨1, _⟩ => rfl)

/-- A row of the lower piece: the stack at `(i, j)` with `i = a₁ + k` is the lower piece at `(k, j)`. -/
theorem concat_rows_lower {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₂) (hk : a₁ + k.val = i.val) :
    concatenate ⟨2, ![n, b]⟩ 0 [⟨⟨2, ![a₁, b]⟩, x₁⟩, ⟨⟨2, ![a₂, b]⟩, x₂⟩] h (ix2 i j) = x₂ (ix2 k j) :=
  concatenate_pair_apply_right (t := ⟨2, ![n, b]⟩) 0 x₁ x₂ h (ix2 i j) rfl rfl (ix2 k j) (fun ax hb => by
    match ax with
    | ⟨0, _⟩ => exact absurd rfl hb
    | ⟨1, _⟩ => rfl) (by
    show k.val + a₁ = i.val
    omega)

end Cert.Lib.TwoBlocks

end
-- ==== Proof.LibScatterAddRows.lean ====
/-
  Rows added into a table at the rows a column of positions names, read at an entry, for any sizes.

  The updates are an `E × C` array, one row per position; the positions are an `E × 1` column of integers; the operand is
  an `N × C` table. Update row `e` is added into the table's row `idx[e, 0]`, read as a signed integer and NOT clamped: a
  position outside `[0, N)` adds nothing. Over the extended reals the result at `(r, p)` is therefore the operand's
  entry plus the sum, over the positions `e` whose start is exactly `r`, of the update's entry `(e, p)`: the column
  coordinate passes through untouched, which is why the same accumulation done on a wider table restricts to it
  column by column.
-/
import Idealize.ShloMosaic.Lib.ValueIdx
import Idealize.ShloMosaic.PureOps.Ideal

noncomputable section

open scoped BigOperators

namespace Cert.Lib.ScatterAddRows

open Idealize.ShloMosaic Idealize.ShloMosaic.ValueIdx

/-- The dimension numbers of a row accumulation: operand `[N, C]`, positions `[E, 1]` (the unit axis holds the one
    component of a start index, which addresses the operand's rows), updates `[E, C]`; each update window is one whole
    row. -/
abbrev rowsScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

/-- On the row axis the window of update `(e, q)` starts at the position `idx[e, 0]`, read signed. -/
theorem start_row : (rowsScatter N E C wf).start (ix2 e q) idx 0 = (idx (ix2 e ⟨0, Nat.one_pos⟩)).toInt := by
  unfold ScatterDims.start
  rw [dif_pos (show (0 : Fin 2) ∈ (rowsScatter N E C wf).scatterDimsToOperandDims from List.mem_singleton.mpr rfl)]
  have hsi : (rowsScatter N E C wf).siIdx (ix2 e q) ⟨List.idxOf (0 : Fin 2) (rowsScatter N E C wf).scatterDimsToOperandDims,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the column axis it starts at zero: no position component addresses the columns. -/
theorem start_col : (rowsScatter N E C wf).start (ix2 e q) idx 1 = 0 := by
  unfold ScatterDims.start
  have h10 : ¬ (1 : Fin 2) ∈ ([0] : List (Fin 2)) := by decide
  rw [dif_neg (show ¬ (1 : Fin 2) ∈ (rowsScatter N E C wf).scatterDimsToOperandDims from h10)]

/-- The row axis is inserted: the window has no extent along it. -/
theorem window_row : (rowsScatter N E C wf).window (ix2 e q) 0 = 0 := by
  unfold ScatterDims.window
  have h0 : ¬ (0 : Fin 2) ∈ (rowsScatter N E C wf).sKept := by
    simp [ScatterDims.sKept, Shape.kept, List.mem_filter]
  rw [dif_neg h0]

/-- Along the columns the window coordinate of update `(e, q)` is `q`. -/
theorem window_col : (rowsScatter N E C wf).window (ix2 e q) 1 = q.val := by
  unfold ScatterDims.window
  have h1 : (1 : Fin 2) ∈ (rowsScatter N E C wf).sKept := by
    simp [ScatterDims.sKept, Shape.kept, List.mem_filter, List.mem_finRange]
  rw [dif_pos h1]
  have key : ∀ (k : Nat) (hk : k < ([1] : List (Fin 2)).length), (ix2 e q (([1] : List (Fin 2))[k]'hk)).val = q.val := by
    intro k hk
    have hk0 : k = 0 := by
      have : k < 1 := hk
      omega
    subst hk0; rfl
  exact key _ _

/-- WHERE AN UPDATE LANDS: update `(e, q)` lands on `(r, p)` exactly when its position is `r` and its column is `p`. -/
theorem resultIdx?_eq_some_iff (r : Fin N) (p : Fin C) :
    (rowsScatter N E C wf).resultIdx? (ix2 e q) idx = some (ix2 r p)
      ↔ (idx (ix2 e ⟨0, Nat.one_pos⟩)).toInt = (r.val : Int) ∧ q = p := by
  have hN : (⟨2, ![N, C]⟩ : Shape).size 0 = N := rfl
  have hC : (⟨2, ![N, C]⟩ : Shape).size 1 = C := rfl
  have hr := r.isLt
  have hq := q.isLt
  unfold ScatterDims.resultIdx?
  split
  · rename_i h
    rw [Option.some.injEq]
    constructor
    · intro hf
      have h0 := congrArg (fun f => (f 0).val) hf
      have h1 := congrArg (fun f => (f 1).val) hf
      simp only [start_row, start_col, window_row, window_col] at h0 h1
      have hh := (h 0).1
      rw [start_row, window_row] at hh
      have e0 : ((ix2 r p : (⟨2, ![N, C]⟩ : Shape).Idx) 0).val = r.val := rfl
      have e1 : ((ix2 r p : (⟨2, ![N, C]⟩ : Shape).Idx) 1).val = p.val := rfl
      rw [e0] at h0
      rw [e1] at h1
      refine ⟨by omega, Fin.ext (by omega)⟩
    · rintro ⟨hs, rfl⟩
      funext a
      refine Fin.ext ?_
      match a with
      | ⟨0, _⟩ =>
        show ((rowsScatter N E C wf).start (ix2 e q) idx 0 + ((rowsScatter N E C wf).window (ix2 e q) 0 : Nat)).toNat = r.val
        rw [start_row, window_row, hs]; omega
      | ⟨1, _⟩ =>
        show ((rowsScatter N E C wf).start (ix2 e q) idx 1 + ((rowsScatter N E C wf).window (ix2 e q) 1 : Nat)).toNat = q.val
        rw [start_col, window_col]; omega
  · rename_i h
    constructor
    · intro hf; exact absurd hf (by simp)
    · rintro ⟨hs, rfl⟩
      refine absurd (fun a => ?_) h
      match a with
      | ⟨0, _⟩ =>
        show 0 ≤ (rowsScatter N E C wf).start (ix2 e q) idx 0 + ((rowsScatter N E C wf).window (ix2 e q) 0 : Nat)
          ∧ (rowsScatter N E C wf).start (ix2 e q) idx 0 + ((rowsScatter N E C wf).window (ix2 e q) 0 : Nat) < ((⟨2, ![N, C]⟩ : Shape).size 0 : Nat)
        rw [start_row, window_row, hs, hN]; omega
      | ⟨1, _⟩ =>
        show 0 ≤ (rowsScatter N E C wf).start (ix2 e q) idx 1 + ((rowsScatter N E C wf).window (ix2 e q) 1 : Nat)
          ∧ (rowsScatter N E C wf).start (ix2 e q) idx 1 + ((rowsScatter N E C wf).window (ix2 e q) 1 : Nat) < ((⟨2, ![N, C]⟩ : Shape).size 1 : Nat)
        rw [start_col, window_col, hC]; omega

end

/-- THE ACCUMULATION READ AT `(r, p)`: the operand's entry plus the sum, over the positions that name row `r`, of the
    update's entry in column `p`. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (r : Fin N) (p : Fin C) :
    Host.scatterAdd (rowsScatter N E C wf) x idx upd (ix2 r p)
      = x (ix2 r p) + ∑ e : Fin E, if (idx (ix2 e ⟨0, Nat.one_pos⟩)).toInt = (r.val : Int) then upd (ix2 e p) else 0 := by
  show Ideal.hostScatterAdd (rowsScatter N E C wf) x idx upd (ix2 r p) = _
  unfold Ideal.hostScatterAdd
  congr 1
  rw [Finset.sum_filter, sum_idx2]
  refine Finset.sum_congr rfl fun e _ => ?_
  simp only [resultIdx?_eq_some_iff]
  by_cases hs : (idx (ix2 e ⟨0, Nat.one_pos⟩)).toInt = (r.val : Int)
  · simp only [hs, true_and, if_true]
    rw [Finset.sum_ite_eq' Finset.univ p (fun q => upd (ix2 e q))]
    simp
  · simp only [hs, false_and, if_false, Finset.sum_const_zero]

end Cert.Lib.ScatterAddRows

end
-- ==== Proof.LibTakeRows.lean ====
/-
  Looking rows up in a table: two operations read at an entry, for any sizes.

  A lookup of rows of an `N × C` table at a column of `R` start positions gives an `R × C` array whose row `r` is the
  table's row at position `r`'s start index, that index read as a signed integer and clamped into `[0, N − 1]`. And a
  conjunction taken along some axes of an array of one-bit flags, started from the flag one, is one wherever every flag
  is one.
-/
import Idealize.ShloMosaic.Lib.ValueIdx
import Idealize.ShloMosaic.Lib.ReduceAll

noncomputable section

namespace Cert.Lib.TakeRows

open Idealize.ShloMosaic Idealize.ShloMosaic.ValueIdx

/-! ## A conjunction of flags that are all one -/

/-- A left fold of the conjunction over flags that are all one, started from one, is one. -/
theorem foldl_andi_all_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_all_one f l fun n hn => h n (List.mem_cons_of_mem _ hn)

/-- A conjunction along any axes of an array of flags that are all one, started from one, is one at every result
    index. -/
theorem reduce_andi_all_one {s t u : Shape} {axes : List (Fin s.rank)} (x : s.Idx → BitVec 1) (init : u.Idx → BitVec 1)
    (h : s.ReducesTo axes t) (hu : 0 < u.numel) (j : t.Idx) (hx : ∀ i, x i = 1#1) (hinit : init (Shape.Idx.first hu) = 1#1) :
    Host.reduce IntOp.andi x init h hu j = 1#1 := by
  rw [Host.reduce_eq_foldl, hinit]
  exact foldl_andi_all_one x _ fun i _ => hx i

/-! ## Rows of a table at a column of start positions -/

section Rows
variable {α : Type}

/-- The dimension numbers of a row lookup: operand `[N, C]`, start positions `[R, 1]` (the unit axis holds the one
    component of a start index, which addresses the operand's rows), result `[R, C]`; each slice is one whole row. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE LOOKUP READ AT `(r, p)`: the table at the row `idx[r, 0]` names — read signed and clamped into `[0, N − 1]` —
    and column `p`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (p : Fin C) :
    Host.gather (rowsDims N R C wf) x idx (ix2 r p)
      = x (ix2 ⟨min (idx (ix2 r ⟨0, Nat.one_pos⟩)).toInt.toNat (N - 1), by omega⟩ p) := by
  unfold Host.gather
  congr 1
  funext a
  refine Fin.ext ?_
  match a with
  | ⟨0, _⟩ =>
    show (rowsDims N R C wf).start (ix2 r p) idx 0 + (rowsDims N R C wf).batchCoord (ix2 r p) 0
      + (rowsDims N R C wf).offCoord (ix2 r p) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 r p) ⟨List.idxOf (0 : Fin 2) (rowsDims N R C wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  | ⟨1, _⟩ =>
    show (rowsDims N R C wf).start (ix2 r p) idx 1 + (rowsDims N R C wf).batchCoord (ix2 r p) 1
      + (rowsDims N R C wf).offCoord (ix2 r p) 1 = p.val
    rw [GatherDims.batchCoord_eq_zero _ _ _ List.not_mem_nil]
    unfold GatherDims.start
    have h10 : ¬ (1 : Fin 2) ∈ ([0] : List (Fin 2)) := by decide
    rw [dif_neg (show ¬ (1 : Fin 2) ∈ (rowsDims N R C wf).startIndexMap from h10)]
    unfold GatherDims.offCoord
    rw [dif_pos (show (1 : Fin 2) ∈ (rowsDims N R C wf).sKept from
      (GatherDims.mem_sKept _ _).mpr ⟨h10, List.not_mem_nil⟩)]
    have key : ∀ (q : Nat) (hq : q < ([1] : List (Fin 2)).length), (ix2 r p (([1] : List (Fin 2))[q]'hq)).val = p.val := by
      intro q hq
      have hq0 : q = 0 := by
        have : q < 1 := hq
        omega
      subst hq0; rfl
    simp only [Nat.zero_add]
    exact key _ _

end Rows

end Cert.Lib.TakeRows

end
-- ==== Proof.LibHostForms.lean ====
/-
  Readings, at an entry, of host operations that spread a vector over a matrix or multiply two matrices, for any
  sizes.

  * A length-`a` vector laid out as an `a × 1` column (a broadcast along a new unit axis) and then spread over `b`
    columns reads, at `(p, q)`, the vector at `p`.
  * A length-`b` vector laid out as a `1 × b` row and then spread over `a` rows reads, at `(p, q)`, the vector at `q`.
  * The two steps of the first one at a time; the host's logarithm at an entry; the zero word added to a sum.
  * A scalar spread over any shape reads the scalar at every entry.
  * The host's matrix product of an `M × K` table with a `K × N` matrix, for any dimension numbers that contract the
    left columns with the right rows and batch nothing, reads at `(p, q)` the sum over `c` of
    `A (p, c) * B (c, q)` over the extended reals.
-/
import Idealize.ShloMosaic.Lib.Pipeline.Value
import Idealize.ShloMosaic.Lib.ValueIdx
import Idealize.ShloMosaic.PureOps.Ideal.Laws

noncomputable section

open scoped BigOperators

namespace Cert.Lib.HostForms

open Idealize.ShloMosaic Idealize.ShloMosaic.ValueIdx

variable {α : Type}

/-- A vector kept as a column and spread along the rows reads, at `(p, q)`, the vector at `p`. -/
theorem bcast_col_chain_apply {a b : ℕ} (d : (⟨1, ![a]⟩ : Shape).Idx → α)
    (h1 : (⟨1, ![a]⟩ : Shape).BroadcastsInDim ⟨2, ![a, 1]⟩ (![0] : Fin 1 → Fin (⟨2, ![a, 1]⟩ : Shape).rank))
    (h2 : (⟨2, ![a, 1]⟩ : Shape).BroadcastsInDim ⟨2, ![a, b]⟩ (![0, 1] : Fin 2 → Fin (⟨2, ![a, b]⟩ : Shape).rank))
    (p : Fin a) (q : Fin b) :
    broadcastInDim ⟨2, ![a, b]⟩ ![0, 1] h2 (broadcastInDim ⟨2, ![a, 1]⟩ ![0] h1 d) (ix2 p q) = d (ix1 p) := by
  refine (broadcastInDim_apply ![0, 1] h2 _ (ix2 p q) (ix2 p (0 : Fin 1)) fun ax => ?_).trans
    (broadcastInDim_apply ![0] h1 d (ix2 p (0 : Fin 1)) (ix1 p) fun ax => ?_)
  · match ax with
    | ⟨0, _⟩ =>
      show p.val = if a = 1 then 0 else p.val
      split
      · have := p.isLt; omega
      · rfl
    | ⟨1, _⟩ =>
      show (0 : ℕ) = if (1 : ℕ) = 1 then 0 else q.val
      rw [if_pos rfl]
  · match ax with
    | ⟨0, _⟩ =>
      show p.val = if a = 1 then 0 else p.val
      split
      · have := p.isLt; omega
      · rfl

/-- A vector kept as a row and spread down the rows reads, at `(p, q)`, the vector at `q`. -/
theorem bcast_row_chain_apply {a b : ℕ} (v : (⟨1, ![b]⟩ : Shape).Idx → α)
    (h1 : (⟨1, ![b]⟩ : Shape).BroadcastsInDim ⟨2, ![1, b]⟩ (![1] : Fin 1 → Fin (⟨2, ![1, b]⟩ : Shape).rank))
    (h2 : (⟨2, ![1, b]⟩ : Shape).BroadcastsInDim ⟨2, ![a, b]⟩ (![0, 1] : Fin 2 → Fin (⟨2, ![a, b]⟩ : Shape).rank))
    (p : Fin a) (q : Fin b) :
    broadcastInDim ⟨2, ![a, b]⟩ ![0, 1] h2 (broadcastInDim ⟨2, ![1, b]⟩ ![1] h1 v) (ix2 p q) = v (ix1 q) := by
  refine (broadcastInDim_apply ![0, 1] h2 _ (ix2 p q) (ix2 (0 : Fin 1) q) fun ax => ?_).trans
    (broadcastInDim_apply ![1] h1 v (ix2 (0 : Fin 1) q) (ix1 q) fun ax => ?_)
  · match ax with
    | ⟨0, _⟩ =>
      show (0 : ℕ) = if (1 : ℕ) = 1 then 0 else p.val
      rw [if_pos rfl]
    | ⟨1, _⟩ =>
      show q.val = if b = 1 then 0 else q.val
      split
      · have := q.isLt; omega
      · rfl
  · match ax with
    | ⟨0, _⟩ =>
      show q.val = if b = 1 then 0 else q.val
      split
      · have := q.isLt; omega
      · rfl

/-- An `a × 1` column spread over `b` columns reads, at `(p, q)`, the column's entry of row `p`. -/
theorem bcast_col_spread_apply {a b : ℕ} (v : (⟨2, ![a, 1]⟩ : Shape).Idx → α)
    (h2 : (⟨2, ![a, 1]⟩ : Shape).BroadcastsInDim ⟨2, ![a, b]⟩ (![0, 1] : Fin 2 → Fin (⟨2, ![a, b]⟩ : Shape).rank))
    (p : Fin a) (q : Fin b) :
    broadcastInDim ⟨2, ![a, b]⟩ ![0, 1] h2 v (ix2 p q) = v (ix2 p (0 : Fin 1)) := by
  refine broadcastInDim_apply ![0, 1] h2 v (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- A length-`a` vector kept as an `a × 1` column reads, at `(p, u)`, the vector at `p`. -/
theorem bcast_vec_col_apply {a : ℕ} (d : (⟨1, ![a]⟩ : Shape).Idx → α)
    (h1 : (⟨1, ![a]⟩ : Shape).BroadcastsInDim ⟨2, ![a, 1]⟩ (![0] : Fin 1 → Fin (⟨2, ![a, 1]⟩ : Shape).rank))
    (p : Fin a) (u : Fin 1) :
    broadcastInDim ⟨2, ![a, 1]⟩ ![0] h1 d (ix2 p u) = d (ix1 p) := by
  refine broadcastInDim_apply ![0] h1 d (ix2 p u) (ix1 p) fun ax => ?_
  match ax with
  | ⟨0, _⟩ =>
    show p.val = if a = 1 then 0 else p.val
    split
    · have := p.isLt; omega
    · rfl

/-- The host's logarithm of a vector read at an entry. -/
theorem hostLog_apply {s : Shape} {φ : FTy} (x : FVec Ideal s φ) (i : s.Idx) : Host.log x i = Ideal.log (x i) := rfl

/-- The zero word in front of a sum adds nothing. -/
theorem zero_word_add (v : FVec Ideal ⟨0, ![]⟩ .f32) (hv : v = constant (F := Ideal) ⟨0, ![]⟩ .f32 0x00000000#32)
    (j : (⟨0, ![]⟩ : Shape).Idx) (s : EReal) : v j + s = s := by
  subst hv
  show Ideal.ofBits .f32 0x00000000#32 + s = s
  rw [Ideal.ofBits_zero_f32, zero_add]

/-- A scalar spread over any shape reads, at every entry, the scalar. -/
theorem bcast_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun ax => ax.elim0

/-- The host's product of an `M × K` table with a `K × N` matrix reads, at `(p, q)`, the sum over the shared axis. -/
theorem plain_dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    Host.dotGeneral D prec A B (ix2 p q) = ∑ c : Fin K, A (ix2 p c) * B (ix2 c q) := by
  subst hD
  show FloatOps.dotGeneral (DotDims.plain M K N) prec .single A B (ix2 p q) = _
  rw [Ideal.dotGeneral_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

end Cert.Lib.HostForms

end
-- ==== Proof.LibConcatCols.lean ====
/-
  Two matrices with the same number of rows set side by side, read at an entry, for any sizes.

  The concatenation of an `a × b₁` matrix and an `a × b₂` matrix along the columns is an `a × n` matrix with
  `n = b₁ + b₂`. Its entry `(i, j)` is the first matrix's entry `(i, j)` when `j < b₁`, and the second matrix's
  entry `(i, j - b₁)` otherwise. The two lemmas below say so with the caller naming the piece's column `k`.
-/
import Idealize.ShloMosaic.Lib.Pipeline.Value
import Idealize.ShloMosaic.Lib.ValueIdx

noncomputable section

namespace Cert.Lib.ConcatCols

open Idealize.ShloMosaic Idealize.ShloMosaic.ValueIdx

variable {α : Type}

/-- A column of the left piece: the concatenation at `(i, j)` with `j = k < b₁` is the left piece at `(i, k)`. -/
theorem concat_cols_left {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₁) (hk : k.val = j.val) :
    concatenate ⟨2, ![a, n]⟩ 1 [⟨⟨2, ![a, b₁]⟩, x₁⟩, ⟨⟨2, ![a, b₂]⟩, x₂⟩] h (ix2 i j) = x₁ (ix2 i k) :=
  concatenate_pair_apply_left (t := ⟨2, ![a, n]⟩) 1 x₁ x₂ h (ix2 i j) rfl (ix2 i k) (fun b => by
    match b with
    | ⟨0, _⟩ => rfl
    | ⟨1, _⟩ => exact hk)

/-- A column of the right piece: the concatenation at `(i, j)` with `j = b₁ + k` is the right piece at `(i, k)`. -/
theorem concat_cols_right {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₂) (hk : b₁ + k.val = j.val) :
    concatenate ⟨2, ![a, n]⟩ 1 [⟨⟨2, ![a, b₁]⟩, x₁⟩, ⟨⟨2, ![a, b₂]⟩, x₂⟩] h (ix2 i j) = x₂ (ix2 i k) :=
  concatenate_pair_apply_right (t := ⟨2, ![a, n]⟩) 1 x₁ x₂ h (ix2 i j) rfl rfl (ix2 i k) (fun b hb => by
    match b with
    | ⟨0, _⟩ => rfl
    | ⟨1, _⟩ => exact absurd rfl hb) (by
    show k.val + b₁ = j.val
    omega)

end Cert.Lib.ConcatCols

end
-- ==== Proof.LibEdgePass.lean ====
/-
  One step of weighted message passing over an edge list, read at an entry, for any sizes.

  A graph is given as `E` edges: a column of source positions, a column of destination positions and a weight per
  edge. One step sends a table `p` of `N` rows to the table whose row `r` is, column by column, a starting value plus
  the sum over the edges whose source position is exactly `r` (read signed; an edge whose source lies outside
  `[0, N)` adds nothing) of `p`'s row at the edge's destination (read signed and clamped into `[0, N − 1]`) times the
  edge's weight. The host spells it as a row lookup, a product with the weights spread along the columns, and an
  accumulation of the rows into a constant table. Each column of the result depends on the same column of `p` only,
  so a step on a table whose columns are those of two tables set side by side is the two steps set side by side.
-/
import Idealize.ShloMosaic.Lib.ValueIdx
import Idealize.ShloMosaic.PureOps.Ideal
import proofs.«133928_j68917045231886_2_alg».proof.Proof.LibScatterAddRows
import proofs.«133928_j68917045231886_2_alg».proof.Proof.LibTakeRows
import proofs.«133928_j68917045231886_2_alg».proof.Proof.LibHostForms
import proofs.«133928_j68917045231886_2_alg».proof.Proof.LibConcatCols

noncomputable section

open scoped BigOperators

namespace Cert.Lib.EdgePass

open Idealize.ShloMosaic Idealize.ShloMosaic.ValueIdx
open Cert.Lib.ScatterAddRows Cert.Lib.TakeRows Cert.Lib.HostForms Cert.Lib.ConcatCols

/-- The row of an `N`-row table a position word names: the word read signed and clamped into `[0, N − 1]`. -/
def rowOf {w : Nat} (N : Nat) (hN : 0 < N) (b : BitVec w) : Fin N := ⟨min b.toInt.toNat (N - 1), by omega⟩

/-- ONE STEP: from the starting value `z`, row `r` collects, over the edges `e` whose source position is `r`, the
    destination's row of `p` times the edge's weight. -/
def propagate {N E C w : Nat} (hN : 0 < N) (src dst : IVec ⟨2, ![E, 1]⟩ w) (wgt : (⟨1, ![E]⟩ : Shape).Idx → EReal) (z : EReal)
    (p : (⟨2, ![N, C]⟩ : Shape).Idx → EReal) : (⟨2, ![N, C]⟩ : Shape).Idx → EReal :=
  fun i => z + ∑ e : Fin E, if (src (ix2 e ⟨0, Nat.one_pos⟩)).toInt = ((i 0).val : Int)
    then p (ix2 (rowOf N hN (dst (ix2 e ⟨0, Nat.one_pos⟩))) (i 1)) * wgt (ix1 e) else 0

/-- A step reads one column of its table: tables that agree on column `q'` of one and `q` of the other give steps that
    agree there. -/
theorem propagate_congr_col {N E C C' w : Nat} (hN : 0 < N) (src dst : IVec ⟨2, ![E, 1]⟩ w)
    (wgt : (⟨1, ![E]⟩ : Shape).Idx → EReal) (z : EReal)
    (p : (⟨2, ![N, C]⟩ : Shape).Idx → EReal) (p' : (⟨2, ![N, C']⟩ : Shape).Idx → EReal) (q : Fin C) (q' : Fin C')
    (h : ∀ i : Fin N, p (ix2 i q) = p' (ix2 i q')) (r : Fin N) :
    propagate hN src dst wgt z p (ix2 r q) = propagate hN src dst wgt z p' (ix2 r q') := by
  unfold propagate
  refine congrArg (z + ·) (Finset.sum_congr rfl fun e _ => ?_)
  show (if _ then p (ix2 _ q) * _ else 0) = (if _ then p' (ix2 _ q') * _ else 0)
  rw [h]
  rfl

/-- THE HOST'S SPELLING IS THE STEP: the rows of `p` looked up at the destination column, times the weights kept as a
    column and spread along the row, added into the table that holds `z` everywhere at the rows the source column
    names. -/
theorem edge_pass_eq {N E C w : Nat} {φ : FTy} (hN : 0 < N)
    (gwf : GatherDims.WF ⟨2, ![N, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (h0 : (⟨0, ![]⟩ : Shape).BroadcastsInDim ⟨2, ![N, C]⟩ (![] : Fin 0 → Fin (⟨2, ![N, C]⟩ : Shape).rank))
    (h1 : (⟨1, ![E]⟩ : Shape).BroadcastsInDim ⟨2, ![E, 1]⟩ (![0] : Fin 1 → Fin (⟨2, ![E, 1]⟩ : Shape).rank))
    (h2 : (⟨2, ![E, 1]⟩ : Shape).BroadcastsInDim ⟨2, ![E, C]⟩ (![0, 1] : Fin 2 → Fin (⟨2, ![E, C]⟩ : Shape).rank))
    (z : FVec Ideal ⟨0, ![]⟩ φ) (src dst : IVec ⟨2, ![E, 1]⟩ w) (wgt : FVec Ideal ⟨1, ![E]⟩ φ) (p : FVec Ideal ⟨2, ![N, C]⟩ φ) :
    Host.scatterAdd (rowsScatter N E C swf) (broadcastInDim ⟨2, ![N, C]⟩ ![] h0 z) src
        (mulf (Host.gather (rowsDims N E C gwf) p dst)
          (broadcastInDim ⟨2, ![E, C]⟩ ![0, 1] h2 (broadcastInDim ⟨2, ![E, 1]⟩ ![0] h1 wgt)))
      = propagate hN src dst wgt (z ix0) p := by
  funext i
  obtain ⟨r, q, rfl⟩ : ∃ (r : Fin N) (q : Fin C), i = ix2 r q := ⟨i 0, i 1, eq_ix2 i⟩
  rw [scatterAdd_rows_apply, bcast_scalar_apply]
  unfold propagate
  refine congrArg (z ix0 + ·) (Finset.sum_congr rfl fun e _ => ?_)
  show (if _ then mulf _ _ (ix2 e q) else 0) = _
  rw [mulf_apply, gather_rows_apply hN, bcast_col_chain_apply]
  rfl

/-! ## A step applied to a matrix product: one layer -/

/-- The product of an `M × K` table with a `K × N` matrix over the extended reals. -/
def mm {M K N : Nat} (A : (⟨2, ![M, K]⟩ : Shape).Idx → EReal) (B : (⟨2, ![K, N]⟩ : Shape).Idx → EReal) :
    (⟨2, ![M, N]⟩ : Shape).Idx → EReal :=
  fun i => ∑ c : Fin K, A (ix2 (i 0) c) * B (ix2 c (i 1))

/-- The host's plain matrix product is that product. -/
theorem dot_eq_mm {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) :
    (Host.dotGeneral D prec A B : (⟨2, ![M, N]⟩ : Shape).Idx → EReal) = mm A B := by
  funext i
  obtain ⟨p, q, rfl⟩ : ∃ (p : Fin M) (q : Fin N), i = ix2 p q := ⟨i 0, i 1, eq_ix2 i⟩
  exact plain_dotGeneral_apply D hD prec A B p q

/-- A product with two matrices set side by side reads, in a column of the left piece, the product with the left
    piece … -/
theorem mm_concat_left {M K b₁ b₂ n : Nat} (A : (⟨2, ![M, K]⟩ : Shape).Idx → EReal)
    (B₁ : (⟨2, ![K, b₁]⟩ : Shape).Idx → EReal) (B₂ : (⟨2, ![K, b₂]⟩ : Shape).Idx → EReal)
    (h : Shape.Concatenates [⟨2, ![K, b₁]⟩, ⟨2, ![K, b₂]⟩] ⟨2, ![K, n]⟩ 1)
    (r : Fin M) (j : Fin n) (k : Fin b₁) (hk : k.val = j.val) :
    mm A (concatenate ⟨2, ![K, n]⟩ 1 [⟨⟨2, ![K, b₁]⟩, B₁⟩, ⟨⟨2, ![K, b₂]⟩, B₂⟩] h) (ix2 r j) = mm A B₁ (ix2 r k) := by
  unfold mm
  refine Finset.sum_congr rfl fun c _ => ?_
  exact congrArg (A (ix2 r c) * ·) (concat_cols_left B₁ B₂ h c j k hk)

/-- … and, in a column of the right piece, the product with the right piece. -/
theorem mm_concat_right {M K b₁ b₂ n : Nat} (A : (⟨2, ![M, K]⟩ : Shape).Idx → EReal)
    (B₁ : (⟨2, ![K, b₁]⟩ : Shape).Idx → EReal) (B₂ : (⟨2, ![K, b₂]⟩ : Shape).Idx → EReal)
    (h : Shape.Concatenates [⟨2, ![K, b₁]⟩, ⟨2, ![K, b₂]⟩] ⟨2, ![K, n]⟩ 1)
    (r : Fin M) (j : Fin n) (k : Fin b₂) (hk : b₁ + k.val = j.val) :
    mm A (concatenate ⟨2, ![K, n]⟩ 1 [⟨⟨2, ![K, b₁]⟩, B₁⟩, ⟨⟨2, ![K, b₂]⟩, B₂⟩] h) (ix2 r j) = mm A B₂ (ix2 r k) := by
  unfold mm
  refine Finset.sum_congr rfl fun c _ => ?_
  exact congrArg (A (ix2 r c) * ·) (concat_cols_right B₁ B₂ h c j k hk)

/-- ONE LAYER as the host spells it — the product `A · B`, its rows looked up at the destinations, scaled, and added
    in at the sources — is a step applied to the product. -/
theorem layer_eq {N K E C w : Nat} {φ : FTy} (hN : 0 < N)
    (D : DotDims ⟨2, ![N, K]⟩ ⟨2, ![K, C]⟩ ⟨2, ![N, C]⟩) (hD : D = DotDims.plain N K C) (prec : Option ContractPrecision)
    (gwf : GatherDims.WF ⟨2, ![N, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (h0 : (⟨0, ![]⟩ : Shape).BroadcastsInDim ⟨2, ![N, C]⟩ (![] : Fin 0 → Fin (⟨2, ![N, C]⟩ : Shape).rank))
    (h1 : (⟨1, ![E]⟩ : Shape).BroadcastsInDim ⟨2, ![E, 1]⟩ (![0] : Fin 1 → Fin (⟨2, ![E, 1]⟩ : Shape).rank))
    (h2 : (⟨2, ![E, 1]⟩ : Shape).BroadcastsInDim ⟨2, ![E, C]⟩ (![0, 1] : Fin 2 → Fin (⟨2, ![E, C]⟩ : Shape).rank))
    (z : FVec Ideal ⟨0, ![]⟩ φ) (src dst : IVec ⟨2, ![E, 1]⟩ w) (wgt : FVec Ideal ⟨1, ![E]⟩ φ)
    (A : FVec Ideal ⟨2, ![N, K]⟩ φ) (B : FVec Ideal ⟨2, ![K, C]⟩ φ) :
    Host.scatterAdd (rowsScatter N E C swf) (broadcastInDim ⟨2, ![N, C]⟩ ![] h0 z) src
        (mulf (Host.gather (rowsDims N E C gwf) (Host.dotGeneral D prec A B) dst)
          (broadcastInDim ⟨2, ![E, C]⟩ ![0, 1] h2 (broadcastInDim ⟨2, ![E, 1]⟩ ![0] h1 wgt)))
      = propagate hN src dst wgt (z ix0) (mm A B) :=
  (edge_pass_eq hN gwf swf h0 h1 h2 z src dst wgt _).trans (congrArg (propagate hN src dst wgt (z ix0)) (dot_eq_mm D hD prec A B))

end Cert.Lib.EdgePass

end
-- ==== Proof.LibBilinearDecoder.lean ====
/-
  A bilinear decoder read at an entry, for any sizes.

  From an `n × k` table `Z`, a length-`k` vector `R` and a `k × k` matrix `M` the decoder forms
  `Z' = ((Z · diag R) · M) · diag R` — the columns of `Z` scaled by `R`, the product with `M`, the columns scaled by
  `R` again — and then the `n × n` table of inner products of the rows of `Z'`: entry `(i, j)` is the sum over `c` of
  `Z' (i, c) * Z' (j, c)`. The host spells the scaling as a product with `R` kept as a `1 × k` row and spread down the
  rows, and the inner products as the product of `Z'` with its transpose.
-/
import Idealize.ShloMosaic.Lib.ValueIdx
import Idealize.ShloMosaic.Lib.Pipeline.Value
import Idealize.ShloMosaic.PureOps.Ideal
import proofs.«133928_j68917045231886_2_alg».proof.Proof.LibHostForms
import proofs.«133928_j68917045231886_2_alg».proof.Proof.LibEdgePass

noncomputable section

open scoped BigOperators

namespace Cert.Lib.BilinearDecoder

open Idealize.ShloMosaic Idealize.ShloMosaic.ValueIdx
open Cert.Lib.HostForms Cert.Lib.EdgePass

/-- `((Z · diag R) · M) · diag R`. -/
def decode {n k : Nat} (R : (⟨1, ![k]⟩ : Shape).Idx → EReal) (M : (⟨2, ![k, k]⟩ : Shape).Idx → EReal)
    (Z : (⟨2, ![n, k]⟩ : Shape).Idx → EReal) : (⟨2, ![n, k]⟩ : Shape).Idx → EReal :=
  fun i => mm (fun j => Z j * R (ix1 (j 1))) M i * R (ix1 (i 1))

/-- The inner products of the rows of `Z`. -/
def gram {n k : Nat} (Z : (⟨2, ![n, k]⟩ : Shape).Idx → EReal) : (⟨2, ![n, n]⟩ : Shape).Idx → EReal :=
  fun i => ∑ c : Fin k, Z (ix2 (i 0) c) * Z (ix2 (i 1) c)

/-- The host's spelling of the scaled product is `decode`. -/
theorem decode_eq {n k : Nat} {φ : FTy} (D : DotDims ⟨2, ![n, k]⟩ ⟨2, ![k, k]⟩ ⟨2, ![n, k]⟩) (hD : D = DotDims.plain n k k)
    (prec : Option ContractPrecision)
    (h1 : (⟨1, ![k]⟩ : Shape).BroadcastsInDim ⟨2, ![1, k]⟩ (![1] : Fin 1 → Fin (⟨2, ![1, k]⟩ : Shape).rank))
    (h2 : (⟨2, ![1, k]⟩ : Shape).BroadcastsInDim ⟨2, ![n, k]⟩ (![0, 1] : Fin 2 → Fin (⟨2, ![n, k]⟩ : Shape).rank))
    (R : FVec Ideal ⟨1, ![k]⟩ φ) (M : FVec Ideal ⟨2, ![k, k]⟩ φ) (Z : FVec Ideal ⟨2, ![n, k]⟩ φ) :
    mulf (Host.dotGeneral D prec
        (mulf Z (broadcastInDim ⟨2, ![n, k]⟩ ![0, 1] h2 (broadcastInDim ⟨2, ![1, k]⟩ ![1] h1 R))) M)
        (broadcastInDim ⟨2, ![n, k]⟩ ![0, 1] h2 (broadcastInDim ⟨2, ![1, k]⟩ ![1] h1 R))
      = decode R M Z := by
  funext i
  obtain ⟨p, q, rfl⟩ : ∃ (p : Fin n) (q : Fin k), i = ix2 p q := ⟨i 0, i 1, eq_ix2 i⟩
  rw [mulf_apply, bcast_row_chain_apply, dot_eq_mm D hD]
  unfold decode
  refine congrArg (· * R (ix1 q)) (congrArg (fun A => mm A M (ix2 p q)) (funext fun j => ?_))
  obtain ⟨a, b, rfl⟩ : ∃ (a : Fin n) (b : Fin k), j = ix2 a b := ⟨j 0, j 1, eq_ix2 j⟩
  rw [mulf_apply, bcast_row_chain_apply]
  rfl

/-- An `n × k` table transposed reads, at `(c, j)`, the table at `(j, c)`. -/
theorem transpose_table_apply {n k : Nat} {α : Type} (Z : (⟨2, ![n, k]⟩ : Shape).Idx → α)
    (h : (⟨2, ![n, k]⟩ : Shape).Transposes [1, 0] ⟨2, ![k, n]⟩) (c : Fin k) (j : Fin n) :
    transpose ⟨2, ![k, n]⟩ [1, 0] Z h (ix2 c j) = Z (ix2 j c) :=
  transpose_apply [1, 0] Z h (ix2 c j) (ix2 j c) (fun b => match b with
    | ⟨0, _⟩ => rfl
    | ⟨1, _⟩ => rfl)

/-- The host's product of a table with its transpose is the table of inner products of its rows. -/
theorem dot_transpose_eq_gram {n k : Nat} {φ : FTy} (D : DotDims ⟨2, ![n, k]⟩ ⟨2, ![k, n]⟩ ⟨2, ![n, n]⟩)
    (hD : D = DotDims.plain n k n) (prec : Option ContractPrecision)
    (h : (⟨2, ![n, k]⟩ : Shape).Transposes [1, 0] ⟨2, ![k, n]⟩) (Z : FVec Ideal ⟨2, ![n, k]⟩ φ) :
    (Host.dotGeneral D prec Z (transpose ⟨2, ![k, n]⟩ [1, 0] Z h) : (⟨2, ![n, n]⟩ : Shape).Idx → EReal) = gram Z := by
  funext i
  obtain ⟨p, q, rfl⟩ : ∃ (p : Fin n) (q : Fin n), i = ix2 p q := ⟨i 0, i 1, eq_ix2 i⟩
  rw [plain_dotGeneral_apply D hD prec]
  unfold gram
  refine Finset.sum_congr rfl fun c _ => ?_
  rw [transpose_table_apply]
  rfl

end Cert.Lib.BilinearDecoder

end
-- ==== Proof.Spec.lean ====
/-
  What the three results are, as functions of the argument arrays, over the extended reals.

  The graph has 16384 nodes and 524288 edges; `src` and `dst` are the edges' source and destination positions kept as
  columns, `wgt` the edge weights. One propagation step (`propagate`) sends a table to the table whose row `r` adds up,
  over the edges out of `r`, the destination's row times the edge weight.

    hidden  = step (x · W₁)                       a 16384 × 64 table
    latent W = step (hidden · W)                  a 16384 × 32 table, for W = W₂ (the mean) and W = W₃ (the log-deviation)
    adjacency = the inner products of the rows of ((latent W₂ · diag R) · M) · diag R
-/
import proofs.«133928_j68917045231886_2_alg».proof.Proof.LibEdgePass
import proofs.«133928_j68917045231886_2_alg».proof.Proof.LibBilinearDecoder

noncomputable section

namespace Cert.Spec

open Idealize.ShloMosaic Idealize.ShloMosaic.ValueIdx Cert.Lib.EdgePass Cert.Lib.BilinearDecoder

theorem nodes_pos : 0 < 16384 := by decide

/-- The value every accumulation starts from: the zero word. -/
abbrev zero : EReal := Ideal.ofBits .f32 0x00000000#32

/-- The hidden layer: one step applied to `x · W₁`. -/
def hidden (x : (⟨2, ![16384, 256]⟩ : Shape).Idx → EReal) (W₁ : (⟨2, ![256, 64]⟩ : Shape).Idx → EReal)
    (wgt : (⟨1, ![524288]⟩ : Shape).Idx → EReal) (src dst : IVec ⟨2, ![524288, 1]⟩ 32) : (⟨2, ![16384, 64]⟩ : Shape).Idx → EReal :=
  propagate nodes_pos src dst wgt zero (mm x W₁)

/-- A latent table: one step applied to `hidden · W`. -/
def latent (x : (⟨2, ![16384, 256]⟩ : Shape).Idx → EReal) (W₁ : (⟨2, ![256, 64]⟩ : Shape).Idx → EReal)
    (W : (⟨2, ![64, 32]⟩ : Shape).Idx → EReal)
    (wgt : (⟨1, ![524288]⟩ : Shape).Idx → EReal) (src dst : IVec ⟨2, ![524288, 1]⟩ 32) : (⟨2, ![16384, 32]⟩ : Shape).Idx → EReal :=
  propagate nodes_pos src dst wgt zero (mm (hidden x W₁ wgt src dst) W)

/-- The decoded table whose rows' inner products are the predicted adjacency. -/
def decoded (x : (⟨2, ![16384, 256]⟩ : Shape).Idx → EReal) (W₁ : (⟨2, ![256, 64]⟩ : Shape).Idx → EReal)
    (W₂ : (⟨2, ![64, 32]⟩ : Shape).Idx → EReal) (R : (⟨1, ![32]⟩ : Shape).Idx → EReal) (M : (⟨2, ![32, 32]⟩ : Shape).Idx → EReal)
    (wgt : (⟨1, ![524288]⟩ : Shape).Idx → EReal) (src dst : IVec ⟨2, ![524288, 1]⟩ 32) : (⟨2, ![16384, 32]⟩ : Shape).Idx → EReal :=
  decode R M (latent x W₁ W₂ wgt src dst)

end Cert.Spec

end
-- ==== Proof.KernelHost.lean ====
/-
  The kernel program's host operations before its one tiled product, read as the specification's functions.

  The program computes the hidden layer as one step on `x · W₁`. It then sets `W₂` and `W₃` side by side into one
  64 × 64 matrix, takes ONE step on `hidden · [W₂ | W₃]` — a 16384 × 64 table — and cuts that table into its left and
  right halves. A step treats the columns of its table independently, and column `q` of `hidden · [W₂ | W₃]` is column
  `q` of `hidden · W₂` for `q < 32` and column `q − 32` of `hidden · W₃` otherwise; so the left half is the step on
  `hidden · W₂` and the right half the step on `hidden · W₃`. The decoded table is then formed from the left half, and
  its change of float format is the identity over the extended reals.
-/
import proofs.«133928_j68917045231886_2_alg».proof.KernelIdeal
import proofs.«133928_j68917045231886_2_alg».proof.Proof.Gen.KernelIdeal
import Idealize.ShloMosaic.Lib.Pipeline.Value
import proofs.«133928_j68917045231886_2_alg».proof.Proof.Spec

noncomputable section

namespace Cert.KernelIdeal.HostValue

open Cert.KernelIdeal Cert.KernelIdeal.Facts₀
open Idealize.ShloMosaic Idealize.ShloMosaic.ValueIdx
open Cert.Lib.EdgePass Cert.Lib.BilinearDecoder Cert.Spec

variable (x0 : FVec Ideal S16384x256 .f32) (x1 : FVec Ideal S524288 .f32) (x2 : FVec Ideal S256x64 .f32)
  (x3 x4 : FVec Ideal S64x32 .f32) (x5 : FVec Ideal S32 .f32) (x6 : FVec Ideal S32x32 .f32) (x7 x8 : IVec S524288 32)

/-! ## The program's terms -/

/-- The destination positions as a column: a negative position is first moved up by the node count. -/
def dstCol : IVec S524288x1 32 :=
  broadcastInDim S524288x1 ![0] bcast_S524288_S524288x1_0
    (select (cmpi .slt x8 (broadcastInDim S524288 ![] bcast_S_S524288 (constantI S_ 32 0#32)))
      (addi x8 (broadcastInDim S524288 ![] bcast_S_S524288 (constantI S_ 32 16384#32))) x8)

/-- The source positions as a column. -/
def srcCol : IVec S524288x1 32 :=
  broadcastInDim S524288x1 ![0] bcast_S524288_S524288x1_0 x7

/-- The edge weights spread along 64 columns. -/
def wgt64 : FVec Ideal S524288x64 .f32 :=
  broadcastInDim S524288x64 ![0, 1] bcast_S524288x1_S524288x64_0_1 (broadcastInDim S524288x1 ![0] bcast_S524288_S524288x1_0 x1)

/-- The table of zeros every accumulation starts from. -/
def zeros64 : FVec Ideal S16384x64 .f32 :=
  broadcastInDim S16384x64 ![] bcast_S_S16384x64 (constant (F := Ideal) S_ .f32 0x00000000#32)

/-- The hidden layer as the program computes it. -/
def hiddenK : FVec Ideal S16384x64 .f32 :=
  Host.scatterAdd (F := Ideal) scatter_S16384x64_S524288x1_S524288x64_1_0_0_1 zeros64 (srcCol x7)
    (mulf (Host.gather gather_S16384x64_S524288x1_S524288x64_1_0_n_n_0_1_164
      (Host.dotGeneral (F := Ideal) dot_S16384x256_S256x64_S16384x64_1_0_0_1_n_n none x0 x2) (dstCol x8)) (wgt64 x1))

/-- The two weight matrices side by side. -/
def W23 : FVec Ideal S64x64 .f32 :=
  concatenate S64x64 1 [⟨S64x32, x3⟩, ⟨S64x32, x4⟩] concatenates_S64x32_S64x32_S64x64_d1

/-- The fused second step. -/
def fusedK : FVec Ideal S16384x64 .f32 :=
  Host.scatterAdd (F := Ideal) scatter_S16384x64_S524288x1_S524288x64_1_0_0_1 zeros64 (srcCol x7)
    (mulf (Host.gather gather_S16384x64_S524288x1_S524288x64_1_0_n_n_0_1_164
      (Host.dotGeneral (F := Ideal) dot_S16384x64_S64x64_S16384x64_1_0_0_1_n_n none (hiddenK x0 x1 x2 x7 x8) (W23 x3 x4)) (dstCol x8)) (wgt64 x1))

/-- Its left half … -/
def meanK : FVec Ideal S16384x32 .f32 :=
  extractStridedSlice S16384x32 ![0, 0] (fusedK x0 x1 x2 x3 x4 x7 x8) slices_S16384x64_S16384x32_0_0

/-- … and its right half. -/
def logK : FVec Ideal S16384x32 .f32 :=
  extractStridedSlice S16384x32 ![0, 32] (fusedK x0 x1 x2 x3 x4 x7 x8) slices_S16384x64_S16384x32_0_32

/-- The vector `R` kept as a row and spread down the rows. -/
def rowR : FVec Ideal S16384x32 .f32 :=
  broadcastInDim S16384x32 ![0, 1] bcast_S1x32_S16384x32_0_1 (broadcastInDim S1x32 ![1] bcast_S32_S1x32_1 x5)

/-- The decoded table, in the shorter float format. -/
def decodedK : FVec Ideal S16384x32 .bf16 :=
  truncf .bf16 (mulf (Host.dotGeneral (F := Ideal) dot_S16384x32_S32x32_S16384x32_1_0_0_1_n_n none
    (mulf (meanK x0 x1 x2 x3 x4 x7 x8) (rowR x5)) x6) (rowR x5)) bitsLt_bf16_f32

/-- The decoded table transposed. -/
def decodedTK : FVec Ideal S32x16384 .bf16 :=
  transpose S32x16384 [1, 0] (decodedK x0 x1 x2 x3 x4 x5 x6 x7 x8) transposes_S16384x32_S32x16384_1_0

/-! ## The terms are the specification's functions -/

/-- The hidden layer is one step on `x · W₁`. -/
theorem hiddenK_eq : hiddenK x0 x1 x2 x7 x8 = hidden x0 x2 x1 (srcCol x7) (dstCol x8) :=
  layer_eq (N := 16384) (K := 256) (E := 524288) (C := 64) nodes_pos
    dot_S16384x256_S256x64_S16384x64_1_0_0_1_n_n rfl none
    gather_S16384x64_S524288x1_S524288x64_1_0_n_n_0_1_164_wf scatter_S16384x64_S524288x1_S524288x64_1_0_0_1_wf
    bcast_S_S16384x64 bcast_S524288_S524288x1_0 bcast_S524288x1_S524288x64_0_1
    (constant (F := Ideal) S_ .f32 0x00000000#32) (srcCol x7) (dstCol x8) x1 x0 x2

/-- The fused step is one step on `hidden · [W₂ | W₃]`. -/
theorem fusedK_eq : fusedK x0 x1 x2 x3 x4 x7 x8
    = propagate nodes_pos (srcCol x7) (dstCol x8) x1 zero (mm (hidden x0 x2 x1 (srcCol x7) (dstCol x8)) (W23 x3 x4)) := by
  have h := layer_eq (N := 16384) (K := 64) (E := 524288) (C := 64) nodes_pos
    dot_S16384x64_S64x64_S16384x64_1_0_0_1_n_n rfl none
    gather_S16384x64_S524288x1_S524288x64_1_0_n_n_0_1_164_wf scatter_S16384x64_S524288x1_S524288x64_1_0_0_1_wf
    bcast_S_S16384x64 bcast_S524288_S524288x1_0 bcast_S524288x1_S524288x64_0_1
    (constant (F := Ideal) S_ .f32 0x00000000#32) (srcCol x7) (dstCol x8) x1 (hiddenK x0 x1 x2 x7 x8) (W23 x3 x4)
  exact h.trans (congrArg (fun A => propagate nodes_pos (srcCol x7) (dstCol x8) x1 zero (mm A (W23 x3 x4))) (hiddenK_eq x0 x1 x2 x7 x8))

/-- The left half of the fused step is the step on `hidden · W₂`. -/
theorem meanK_eq : meanK x0 x1 x2 x3 x4 x7 x8 = latent x0 x2 x3 x1 (srcCol x7) (dstCol x8) := by
  funext i
  obtain ⟨r, q, rfl⟩ : ∃ (r : Fin 16384) (q : Fin 32), i = ix2 r q := ⟨i 0, i 1, eq_ix2 i⟩
  have hq := q.isLt
  unfold meanK
  rw [extractStridedSlice_apply ![0, 0] _ slices_S16384x64_S16384x32_0_0 (ix2 r q) (ix2 r (⟨q.val, by omega⟩ : Fin 64))
    (fun a => match a with
      | ⟨0, _⟩ => (Nat.zero_add _).symm
      | ⟨1, _⟩ => (Nat.zero_add _).symm), fusedK_eq]
  unfold latent
  exact propagate_congr_col nodes_pos _ _ _ _ _ _ (⟨q.val, by omega⟩ : Fin 64) q
    (fun i => mm_concat_left _ x3 x4 concatenates_S64x32_S64x32_S64x64_d1 i _ q rfl) r

/-- The right half of the fused step is the step on `hidden · W₃`. -/
theorem logK_eq : logK x0 x1 x2 x3 x4 x7 x8 = latent x0 x2 x4 x1 (srcCol x7) (dstCol x8) := by
  funext i
  obtain ⟨r, q, rfl⟩ : ∃ (r : Fin 16384) (q : Fin 32), i = ix2 r q := ⟨i 0, i 1, eq_ix2 i⟩
  have hq := q.isLt
  unfold logK
  rw [extractStridedSlice_apply ![0, 32] _ slices_S16384x64_S16384x32_0_32 (ix2 r q) (ix2 r (⟨32 + q.val, by omega⟩ : Fin 64))
    (fun a => match a with
      | ⟨0, _⟩ => (Nat.zero_add _).symm
      | ⟨1, _⟩ => rfl), fusedK_eq]
  unfold latent
  exact propagate_congr_col nodes_pos _ _ _ _ _ _ (⟨32 + q.val, by omega⟩ : Fin 64) q
    (fun i => mm_concat_right _ x3 x4 concatenates_S64x32_S64x32_S64x64_d1 i _ q rfl) r

/-- The decoded table, its float format changed or not, is the specification's. -/
theorem decodedK_eq : (decodedK x0 x1 x2 x3 x4 x5 x6 x7 x8 : S16384x32.Idx → EReal)
    = decoded x0 x2 x3 x5 x6 x1 (srcCol x7) (dstCol x8) := by
  unfold decodedK decoded
  rw [meanK_eq]
  exact decode_eq (n := 16384) (k := 32) dot_S16384x32_S32x32_S16384x32_1_0_0_1_n_n rfl none
    bcast_S32_S1x32_1 bcast_S1x32_S16384x32_0_1 x5 x6 _

/-- The transposed table read at an entry. -/
theorem decodedTK_apply (k : Fin 32) (j : Fin 16384) :
    decodedTK x0 x1 x2 x3 x4 x5 x6 x7 x8 (ix2 k j) = decodedK x0 x1 x2 x3 x4 x5 x6 x7 x8 (ix2 j k) :=
  transpose_table_apply (n := 16384) (k := 32) _ transposes_S16384x32_S32x16384_1_0 k j

end Cert.KernelIdeal.HostValue

end
-- ==== Proof.KernelEntry.lean ====
/-
  The arrays the tiled product finds, and the two results the host computed before it.

  When the program reaches its one tiled product, the left operand's array holds the decoded table and the right
  operand's array its transpose; the second and third results are already in their arrays — the left and right
  halves of the fused step — and the product leaves them alone.
-/
import proofs.«133928_j68917045231886_2_alg».proof.Proof.Gen.KernelIdeal.Frame
import Idealize.ShloMosaic.Lib.StableHlo.Run
import proofs.«133928_j68917045231886_2_alg».proof.Proof.KernelHost

set_option maxRecDepth 16384

noncomputable section

namespace Cert.KernelIdeal.Entry

open Cert.KernelIdeal Cert.KernelIdeal.Gen Cert.KernelIdeal.HostValue
open Idealize.ShloMosaic Idealize.ShloMosaic.TcCoe Idealize.SL.Sem Idealize.ShloMosaic.StableHlo

variable (m : (ℓ : Loc nD τ sig) → Buf (Elt Ideal) ℓ) (c : Dev nD)

set_option maxHeartbeats 4000000 in
/-- The left operand's array at the region's entry: the decoded table. -/
theorem V_left : (V m c main_v38 : S16384x32.Idx → EReal)
    = decodedK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  dsimp only [Gen.V, Gen.hostOps0]
  after_results_simp <;> rfl

set_option maxHeartbeats 4000000 in
/-- The right operand's array at the region's entry: the decoded table transposed. -/
theorem V_right : (V m c main_v39 : S32x16384.Idx → EReal)
    = decodedTK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  dsimp only [Gen.V, Gen.hostOps0]
  after_results_simp <;> rfl

set_option maxHeartbeats 4000000 in
/-- The second result's array at the region's entry: the left half of the fused step. -/
theorem V_mean : (V m c main_v29 : S16384x32.Idx → EReal)
    = meanK (m ((c : Thread nD τ).loc main_arg0)) (m ((c : Thread nD τ).loc main_arg1)) (m ((c : Thread nD τ).loc main_arg2))
        (m ((c : Thread nD τ).loc main_arg3)) (m ((c : Thread nD τ).loc main_arg4))
        (m ((c : Thread nD τ).loc main_arg7)) (m ((c : Thread nD τ).loc main_arg8)) := by
  dsimp only [Gen.V, Gen.hostOps0]
  after_results_simp <;> rfl

set_option maxHeartbeats 4000000 in
/-- The third result's array at the region's entry: the right half of the fused step. -/
theorem V_log : (V m c main_v30 : S16384x32.Idx → EReal)
    = logK (m ((c : Thread nD τ).loc main_arg0)) (m ((c : Thread nD τ).loc main_arg1)) (m ((c : Thread nD τ).loc main_arg2))
        (m ((c : Thread nD τ).loc main_arg3)) (m ((c : Thread nD τ).loc main_arg4))
        (m ((c : Thread nD τ).loc main_arg7)) (m ((c : Thread nD τ).loc main_arg8)) := by
  dsimp only [Gen.V, Gen.hostOps0]
  after_results_simp <;> rfl

end Cert.KernelIdeal.Entry

end
-- ==== Proof.KernelTiles.lean ====
/-
  The tiled product's result array is the table of inner products of the decoded table's rows.

  The result is cut into 16 × 8 tiles of 1024 × 2048 entries. At tile `(bi, bj)` the body multiplies rows
  `bi·1024 …` of the left operand — the decoded table `Z` — with columns `bj·2048 …` of the right operand — `Z`
  transposed — into a zero accumulator: entry `(a, b)` of the tile is the sum over `k` of
  `Z (bi·1024 + a, k) · Z (bj·2048 + b, k)`, the inner product of two rows of `Z`. The tiles cover the array, so the
  array is the whole table of inner products.
-/
import proofs.«133928_j68917045231886_2_alg».proof.Proof.Gen.KernelIdeal.Value
import Idealize.ShloMosaic.Lib.Pipeline.Value
import proofs.«133928_j68917045231886_2_alg».proof.Proof.LibTwoBlocks
import proofs.«133928_j68917045231886_2_alg».proof.Proof.KernelEntry

set_option maxRecDepth 16384

noncomputable section

open scoped BigOperators

namespace Cert.KernelIdeal.Tiles

open Cert.KernelIdeal Cert.KernelIdeal.Gen Cert.KernelIdeal.HostValue Cert.KernelIdeal.Entry
open Idealize.ShloMosaic Idealize.ShloMosaic.TcCoe Idealize.SL.Sem Idealize.ShloMosaic.ValueIdx
open Idealize.ShloMosaic.Pipeline (Dat)
open Cert.Lib.BilinearDecoder Cert.Lib.TwoBlocks

variable (m : (ℓ : Loc nD τ sig) → Buf (Elt Ideal) ℓ) (ρ : Dev nD → PrngReg)

theorem origin : (![0, 0] : Fin 2 → Nat) = fun _ => 0 := funext fun a => by fin_cases a <;> rfl

/-- One tile's entry: the inner product of a row of the left block with a column of the right block. -/
theorem tile_apply (x0 : FVec Ideal S1024x32 .bf16) (x1 : FVec Ideal S32x2048 .bf16) (a : Fin 1024) (b : Fin 2048) :
    k0_pay1 (F := Ideal) x0 x1 (ix2 a b) = ∑ k : Fin 32, x0 (ix2 a k) * x1 (ix2 k b) := by
  unfold k0_pay1
  refine (plain_matmul_zero_apply (M := 1024) (K := 32) (N := 2048) dot_S1024x32_S32x2048_S1024x2048_1_0_0_1_n_n rfl none
    _ _ a b).trans ?_
  rw [shapeCast_self, shapeCast_self]

/-- A tile of the product is a tile of the table of inner products: when the left block holds rows `bi·1024 …` of
    `Z` and the right block columns `bj·2048 …` of its transpose, the tile's entry `(a, b)` is the inner product of
    rows `bi·1024 + a` and `bj·2048 + b` of `Z`. -/
theorem tile_eq (Z : S16384x32.Idx → EReal) (ZT : S32x16384.Idx → EReal)
    (hT : ∀ (k : Fin 32) (j : Fin 16384), ZT (ix2 k j) = Z (ix2 j k))
    (x0 : FVec Ideal S1024x32 .bf16) (x1 : FVec Ideal S32x2048 .bf16) (i : S16384x16384.Idx)
    (a : Fin 1024) (b : Fin 2048)
    (h0 : ∀ k : Fin 32, x0 (ix2 a k) = Z (ix2 (i 0) k))
    (h1 : ∀ k : Fin 32, x1 (ix2 k b) = ZT (ix2 k (i 1))) :
    k0_pay1 (F := Ideal) x0 x1 (ix2 a b) = gram Z i := by
  rw [tile_apply]
  unfold gram
  refine Finset.sum_congr rfl fun k _ => ?_
  rw [h0, h1]
  exact congrArg (Z (ix2 (i 0) k) * ·) (hT k (i 1))

/-- The printed index maps, decided over the 128 grid points: the left operand's block follows the tile's row of
    tiles, the right operand's its column of tiles. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 15 ∧ win0_2.index t (1 : Fin 2) ≤ 7 :=
  (by decide +kernel : ∀ t : Fin grid0.N, _)

/-- Every tile is some grid point's. -/
theorem idx_onto : ∀ (q0 : Fin 16) (q1 : Fin 8), ∃ t : Fin cfg0.N, win0_2.index t = ![q0.val, q1.val] :=
  (by decide +kernel : ∀ (q0 : Fin 16) (q1 : Fin 8), ∃ t : Fin grid0.N, win0_2.index t = ![q0.val, q1.val])

/-- WHAT POINT `t` WRITES BACK is tile `t` of the table of inner products of the decoded table's rows. -/
theorem flushed_eq (c : Dev nD) (t : Fin cfg0.N) :
    (dats m 0 c).flushed 2 t
      = ((cfg0.win 2).blk t).view.read (Elt Ideal) (gram (V m c main_v38 : S16384x32.Idx → EReal)) := by
  show (cfg0.win 2).cut (grid0.coords t) ((dats m 0 c).after 2 t) = _
  rw [after0_2]
  unfold out0_2
  rw [View.canon_unit_zero origin]
  simp only [View.ld_unit_zero (S := S1024x32) origin, View.ld_unit_zero (S := S32x2048) origin]
  obtain ⟨e0, e1, e2, e3, e4, e5⟩ := idx_facts t
  funext j
  show k0_pay1 (F := Ideal) (iblk m c 0 t) (iblk m c 1 t) j
    = gram (V m c main_v38 : S16384x32.Idx → EReal) (((cfg0.win 2).blk t).view.emb j)
  refine (congrArg (k0_pay1 (F := Ideal) (iblk m c 0 t) (iblk m c 1 t)) (eq_ix2 j)).trans ?_
  refine tile_eq (V m c main_v38) (V m c main_v39)
    (fun k j' => by rw [V_right, V_left]; exact decodedTK_apply _ _ _ _ _ _ _ _ _ k j')
    (iblk m c 0 t) (iblk m c 1 t) (((cfg0.win 2).blk t).view.emb j) (j 0) (j 1) (fun k => ?_) (fun k => ?_)
  · show V m c main_v38 (((cfg0.win 0).blk t).view.emb (ix2 (j 0) k)) = _
    refine congrArg (V m c main_v38) (funext fun ax => Fin.ext ?_)
    match ax with
    | ⟨0, _⟩ =>
      show win0_0.index t (0 : Fin 2) * 1024 + 1 * (j 0).val = win0_2.index t (0 : Fin 2) * 1024 + 1 * (j 0).val
      omega
    | ⟨1, _⟩ =>
      show win0_0.index t (1 : Fin 2) * 32 + 1 * k.val = k.val
      omega
  · show V m c main_v39 (((cfg0.win 1).blk t).view.emb (ix2 k (j 1))) = _
    refine congrArg (V m c main_v39) (funext fun ax => Fin.ext ?_)
    match ax with
    | ⟨0, _⟩ =>
      show win0_1.index t (0 : Fin 2) * 32 + 1 * k.val = k.val
      omega
    | ⟨1, _⟩ =>
      show win0_1.index t (1 : Fin 2) * 2048 + 1 * (j 1).val = win0_2.index t (1 : Fin 2) * 2048 + 1 * (j 1).val
      omega

/-- An index of the array is in point `t`'s tile iff each coordinate is in the tile's range on its axis. -/
theorem mem_blk (t : Fin cfg0.N) (i : S16384x16384.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v40).slice (win0_2.rect t)).set ↔ _
  rw [View.set_slice_whole, Rect.mem_set_unit]
  exact Iff.rfl

/-- Every index of the array lies in some point's tile. -/
theorem cover (i : S16384x16384.Idx) :
    ∃ t : Fin cfg0.N, (cfg0.win 2).flush t = true ∧ i ∈ ((cfg0.win 2).blk t).view.set := by
  have hi0 : (i 0).val < 16384 := (i 0).isLt
  have hi1 : (i 1).val < 16384 := (i 1).isLt
  obtain ⟨t, ht⟩ := idx_onto ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 2048 ≤ (i 1).val ∧ (i 1).val < win0_2.index t (1 : Fin 2) * 2048 + 2048
    omega

/-- THE ARRAY after the run: the table of inner products of the decoded table's rows. -/
theorem final (c : Dev nD) :
    (dats m 0 c).arrAt 2 cfg0.N = gram (V m c main_v38 : S16384x32.Idx → EReal) :=
  (dats m 0 c).arrAt_eq_of_cover 2 (gram (V m c main_v38 : S16384x32.Idx → EReal)) (fun t _ => flushed_eq m c t) cover

end Cert.KernelIdeal.Tiles

end
-- ==== Proof.KernelRun.lean ====
/-
  The kernel program's run with its three results named.

  Every weakly fair execution ends with the first result's array at the table of inner products of the decoded
  table's rows, the second at the step on `hidden · W₂`, the third at the step on `hidden · W₃`, and the argument
  arrays as launched.
-/
import proofs.«133928_j68917045231886_2_alg».proof.Proof.KernelTiles

set_option maxRecDepth 16384

noncomputable section

namespace Cert.KernelIdeal.Results

open Cert.KernelIdeal Cert.KernelIdeal.Gen Cert.KernelIdeal.HostValue Cert.KernelIdeal.Entry Cert.KernelIdeal.Tiles
open Idealize.ShloMosaic Idealize.ShloMosaic.TcCoe Idealize.SL.Sem
open Cert.Lib.BilinearDecoder Cert.Spec

variable (m : (ℓ : Loc nD τ sig) → Buf (Elt Ideal) ℓ) (ρ : Dev nD → PrngReg)

/-- The first result: the inner products of the rows of the decoded table. -/
def adjacency (c : Dev nD) : S16384x16384.Idx → EReal :=
  gram (decoded (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg1)) (srcCol (m ((c : Thread nD τ).loc main_arg7))) (dstCol (m ((c : Thread nD τ).loc main_arg8))))

/-- The second result: the step on `hidden · W₂`. -/
def mean (c : Dev nD) : S16384x32.Idx → EReal :=
  latent (m ((c : Thread nD τ).loc main_arg0)) (m ((c : Thread nD τ).loc main_arg2)) (m ((c : Thread nD τ).loc main_arg3)) (m ((c : Thread nD τ).loc main_arg1)) (srcCol (m ((c : Thread nD τ).loc main_arg7))) (dstCol (m ((c : Thread nD τ).loc main_arg8)))

/-- The third result: the step on `hidden · W₃`. -/
def logDev (c : Dev nD) : S16384x32.Idx → EReal :=
  latent (m ((c : Thread nD τ).loc main_arg0)) (m ((c : Thread nD τ).loc main_arg2)) (m ((c : Thread nD τ).loc main_arg4)) (m ((c : Thread nD τ).loc main_arg1)) (srcCol (m ((c : Thread nD τ).loc main_arg7))) (dstCol (m ((c : Thread nD τ).loc main_arg8)))

theorem final_adjacency (c : Dev nD) : (dats m 0 c).arrAt 2 cfg0.N = adjacency m c := by
  rw [final, V_left, decodedK_eq]
  rfl

theorem entry_mean (c : Dev nD) : (V m c main_v29 : S16384x32.Idx → EReal) = mean m c := by
  rw [V_mean, meanK_eq]
  rfl

theorem entry_logDev (c : Dev nD) : (V m c main_v30 : S16384x32.Idx → EReal) = logDev m c := by
  rw [V_log, logK_eq]
  rfl

/-- The run, read. -/
theorem run : θ_run defs (onTc (τ := τ) (main (F := Ideal))) ⟨m, fun _ => 0, ρ⟩ fun r => ∀ c : Dev nD,
      r.2.mem ((c : Thread nD τ).loc main_v40) = adjacency m c
      ∧ r.2.mem ((c : Thread nD τ).loc main_v29) = mean m c
      ∧ r.2.mem ((c : Thread nD τ).loc main_v30) = logDev m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(Value.post2 m r h c).trans (final_adjacency m c),
      ((h c).2 main_v29 (Pipeline.mem_restRefs_of main_v29 (by decide) (by decide))).trans (entry_mean m c),
      ((h c).2 main_v30 (Pipeline.mem_restRefs_of main_v30 (by decide) (by decide))).trans (entry_logDev m c),
      Value.kept_main_arg0 m r h c,
      Value.kept_main_arg1 m r h c,
      Value.kept_main_arg2 m r h c,
      Value.kept_main_arg3 m r h c,
      Value.kept_main_arg4 m r h c,
      Value.kept_main_arg5 m r h c,
      Value.kept_main_arg6 m r h c,
      Value.kept_main_arg7 m r h c,
      Value.kept_main_arg8 m r h c⟩)
    (run_main m ρ)

end Cert.KernelIdeal.Results

end
-- ==== Proof.RefHost.lean ====
/-
  The reference program's stages read as the specification's functions.

  The reference takes the hidden layer as one step on `x · W₁`, then one step on `hidden · W₂` and one on
  `hidden · W₃`, forms the decoded table from the first of these, and multiplies it by its transpose.
-/
import proofs.«133928_j68917045231886_2_alg».proof.Proof.Gen.ReferenceIdeal.Read
import proofs.«133928_j68917045231886_2_alg».proof.Proof.Spec

noncomputable section

namespace Cert.ReferenceIdeal.HostValue

open Cert.ReferenceIdeal Cert.ReferenceIdeal.Facts₀ Cert.ReferenceIdeal.Read
open Idealize.ShloMosaic Idealize.ShloMosaic.ValueIdx
open Cert.Lib.EdgePass Cert.Lib.BilinearDecoder Cert.Spec

variable (x0 : FVec Ideal S16384x256 .f32) (x1 : FVec Ideal S524288 .f32) (x2 : FVec Ideal S256x64 .f32)
  (x3 x4 : FVec Ideal S64x32 .f32) (x5 : FVec Ideal S32 .f32) (x6 : FVec Ideal S32x32 .f32) (x7 x8 : IVec S524288 32)

/-- The destination positions as a column: a negative position is first moved up by the node count. -/
def dstCol : IVec S524288x1 32 :=
  broadcastInDim S524288x1 ![0] bcast_S524288_S524288x1_0
    (select (cmpi .slt x8 (broadcastInDim S524288 ![] bcast_S_S524288 (constantI S_ 32 0#32)))
      (addi x8 (broadcastInDim S524288 ![] bcast_S_S524288 (constantI S_ 32 16384#32))) x8)

/-- The source positions as a column. -/
def srcCol : IVec S524288x1 32 :=
  broadcastInDim S524288x1 ![0] bcast_S524288_S524288x1_0 x7

/-- The hidden layer is one step on `x · W₁`. -/
theorem hidden_eq : val_main_v13 (F := Ideal) x0 x1 x2 x7 x8 = hidden x0 x2 x1 (srcCol x7) (dstCol x8) :=
  layer_eq (N := 16384) (K := 256) (E := 524288) (C := 64) nodes_pos
    dot_S16384x256_S256x64_S16384x64_1_0_0_1_n_n rfl none
    gather_S16384x64_S524288x1_S524288x64_1_0_n_n_0_1_164_wf scatter_S16384x64_S524288x1_S524288x64_1_0_0_1_wf
    bcast_S_S16384x64 bcast_S524288_S524288x1_0 bcast_S524288x1_S524288x64_0_1
    (constant (F := Ideal) S_ .f32 0x00000000#32) (srcCol x7) (dstCol x8) x1 x0 x2

/-- The mean table is one step on `hidden · W₂`. -/
theorem mean_eq : val_main_v27 (F := Ideal) x0 x1 x2 x3 x7 x8 = latent x0 x2 x3 x1 (srcCol x7) (dstCol x8) :=
  (layer_eq (N := 16384) (K := 64) (E := 524288) (C := 32) nodes_pos
    dot_S16384x64_S64x32_S16384x32_1_0_0_1_n_n rfl none
    gather_S16384x32_S524288x1_S524288x32_1_0_n_n_0_1_132_wf scatter_S16384x32_S524288x1_S524288x32_1_0_0_1_wf
    bcast_S_S16384x32 bcast_S524288_S524288x1_0 bcast_S524288x1_S524288x32_0_1
    (constant (F := Ideal) S_ .f32 0x00000000#32) (srcCol x7) (dstCol x8) x1 (val_main_v13 (F := Ideal) x0 x1 x2 x7 x8) x3).trans
    (congrArg (fun A => propagate nodes_pos (srcCol x7) (dstCol x8) x1 zero (mm A x3)) (hidden_eq x0 x1 x2 x7 x8))

/-- The log-deviation table is one step on `hidden · W₃`. -/
theorem log_eq : val_main_v41 (F := Ideal) x0 x1 x2 x4 x7 x8 = latent x0 x2 x4 x1 (srcCol x7) (dstCol x8) :=
  (layer_eq (N := 16384) (K := 64) (E := 524288) (C := 32) nodes_pos
    dot_S16384x64_S64x32_S16384x32_1_0_0_1_n_n rfl none
    gather_S16384x32_S524288x1_S524288x32_1_0_n_n_0_1_132_wf scatter_S16384x32_S524288x1_S524288x32_1_0_0_1_wf
    bcast_S_S16384x32 bcast_S524288_S524288x1_0 bcast_S524288x1_S524288x32_0_1
    (constant (F := Ideal) S_ .f32 0x00000000#32) (srcCol x7) (dstCol x8) x1 (val_main_v13 (F := Ideal) x0 x1 x2 x7 x8) x4).trans
    (congrArg (fun A => propagate nodes_pos (srcCol x7) (dstCol x8) x1 zero (mm A x4)) (hidden_eq x0 x1 x2 x7 x8))

/-- The decoded table is the specification's. -/
theorem decoded_eq : val_main_v48 (F := Ideal) x0 x1 x2 x3 x5 x6 x7 x8 = decoded x0 x2 x3 x5 x6 x1 (srcCol x7) (dstCol x8) :=
  (decode_eq (n := 16384) (k := 32) dot_S16384x32_S32x32_S16384x32_1_0_0_1_n_n rfl none
    bcast_S32_S1x32_1 bcast_S1x32_S16384x32_0_1 x5 x6 (val_main_v27 (F := Ideal) x0 x1 x2 x3 x7 x8)).trans
    (congrArg (decode x5 x6) (mean_eq x0 x1 x2 x3 x7 x8))

/-- The product of the decoded table with its transpose is the table of inner products of its rows. -/
theorem adjacency_eq : val_main_v50 (F := Ideal) x0 x1 x2 x3 x5 x6 x7 x8
    = gram (decoded x0 x2 x3 x5 x6 x1 (srcCol x7) (dstCol x8)) :=
  (dot_transpose_eq_gram (n := 16384) (k := 32) dot_S16384x32_S32x16384_S16384x16384_1_0_0_1_n_n rfl none
    transposes_S16384x32_S32x16384_1_0 (val_main_v48 (F := Ideal) x0 x1 x2 x3 x5 x6 x7 x8)).trans
    (congrArg gram (decoded_eq x0 x1 x2 x3 x5 x6 x7 x8))

end Cert.ReferenceIdeal.HostValue

end
-- ==== Proof.lean ====
/-
  Two programs for a graph autoencoder's forward pass, equal over the extended reals.

  Both programs turn node features `x`, an edge list with weights, and weight matrices into three results: a
  16384 × 16384 table of predicted adjacencies and two 16384 × 32 latent tables. One propagation step sends a
  table to the table whose row `r` adds up, over the edges out of `r`, the destination's row times the edge
  weight. The hidden layer is a step on `x · W₁`; the latent tables are steps on `hidden · W₂` and `hidden · W₃`;
  the adjacencies are the inner products of the rows of `((mean · diag R) · M) · diag R`.

  The reference computes exactly this. The kernel program differs in two places. It takes ONE step on
  `hidden · [W₂ | W₃]` and cuts the result in two: a step treats the columns of its table independently, and a
  column of `hidden · [W₂ | W₃]` is a column of `hidden · W₂` or of `hidden · W₃`, so the halves are the two
  latent tables (no law of arithmetic is used: the same sums of the same products appear on both sides). And
  it forms the inner products tile by tile, 1024 × 2048 entries at a time, from the decoded table in a shorter
  float format and its transpose, each tile a product into a zero accumulator: over the extended reals a change
  of float format is the identity, a tile's entry is the inner product of two rows, and the tiles cover the
  table. Neither step needs the inputs to be finite.

  The argument arrays end as launched in all three programs (the frames); the kernel program's idealization
  rewrote no operation, so there is nothing to preserve.
-/
import proofs.«133928_j68917045231886_2_alg».proof.Defs
import proofs.«133928_j68917045231886_2_alg».proof.Proof.Gen.Kernel
import proofs.«133928_j68917045231886_2_alg».proof.Proof.Gen.Kernel.Frame
import proofs.«133928_j68917045231886_2_alg».proof.Proof.Gen.KernelIdeal
import proofs.«133928_j68917045231886_2_alg».proof.Proof.Gen.KernelIdeal.Frame
import proofs.«133928_j68917045231886_2_alg».proof.Proof.Gen.KernelIdeal.Value
import proofs.«133928_j68917045231886_2_alg».proof.Proof.Gen.ReferenceIdeal
import proofs.«133928_j68917045231886_2_alg».proof.Proof.Gen.ReferenceIdeal.Run
import proofs.«133928_j68917045231886_2_alg».proof.Proof.Gen.ReferenceIdeal.Read
import proofs.«133928_j68917045231886_2_alg».proof.Proof.Gen.Pre_finite_inputs
import proofs.«133928_j68917045231886_2_alg».proof.Proof.KernelRun
import proofs.«133928_j68917045231886_2_alg».proof.Proof.RefHost

set_option maxRecDepth 16384

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories that agree on the arguments the two programs end with the same three results: the kernel
    program's are the specification's functions of its arguments (its run, read), and so are the reference's. -/
theorem algebraic : Cert.algebraic_KernelIdeal_ReferenceIdeal := by
  intro m ρ m' ρ' _ hagree
  refine ⟨_, _, _, Cert.KernelIdeal.Results.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v50_eq, Cert.ReferenceIdeal.HostValue.adjacency_eq,
      (hagree c).1, (hagree c).2.1, (hagree c).2.2.1, (hagree c).2.2.2.1, (hagree c).2.2.2.2.2.1,
      (hagree c).2.2.2.2.2.2.1, (hagree c).2.2.2.2.2.2.2.1, (hagree c).2.2.2.2.2.2.2.2]
    rfl
  · refine (Cert.ReferenceIdeal.Read.val_main_v27_eq (F := Ideal) _ _ _ _ _ _).trans ?_
    rw [Cert.ReferenceIdeal.HostValue.mean_eq,
      (hagree c).1, (hagree c).2.1, (hagree c).2.2.1, (hagree c).2.2.2.1,
      (hagree c).2.2.2.2.2.2.2.1, (hagree c).2.2.2.2.2.2.2.2]
    rfl
  · refine (Cert.ReferenceIdeal.Read.val_main_v41_eq (F := Ideal) _ _ _ _ _ _).trans ?_
    rw [Cert.ReferenceIdeal.HostValue.log_eq,
      (hagree c).1, (hagree c).2.1, (hagree c).2.2.1, (hagree c).2.2.2.2.1,
      (hagree c).2.2.2.2.2.2.2.1, (hagree c).2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
